-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S128x128 .f32) (main_arg8 : FVec F S1x128 .f32) (main_arg9 : FVec F S1 .f32) (main_arg10 : FVec F S1x128 .f32) (main_arg11 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg11 main_v48 main_v49 main_v50

def fn_part1 {F : FTy → Type} [FloatOps F] (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S50000x128 .f32) (main_arg1 : FVec F S200000x128 .f32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_arg11 : FVec F S1 .f32) (main_arg12 : IVec S1000000 32) (main_arg13 : IVec S1000000 32) (main_arg14 : IVec S1000000 32) (main_arg15 : IVec S1000000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 86
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S200000x128, .f32⟩
  | .hbm, ⟨27, _⟩ => ⟨S1000000x1, .i32⟩
  | .hbm, ⟨28, _⟩ => ⟨S200000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S200000, .f32⟩
  | .hbm, ⟨33, _⟩ => ⟨S1000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S_, .f32⟩
  | .hbm, ⟨39, _⟩ => ⟨S200000, .f32⟩
  | .hbm, ⟨40, _⟩ => ⟨S200000, .f32⟩
  | .hbm, ⟨41, _⟩ => ⟨S200000x1, .f32⟩
  | .hbm, ⟨42, _⟩ => ⟨S_, .i32⟩
  | .hbm, ⟨43, _⟩ => ⟨S1000000, .i32⟩
  | .hbm, ⟨44, _⟩ => ⟨S1000000, .i1⟩
  | .hbm, ⟨45, _⟩ => ⟨S_, .i32⟩
  | .hbm, ⟨46, _⟩ => ⟨S1000000, .i32⟩
  | .hbm, ⟨47, _⟩ => ⟨S1000000, .i32⟩
  | .hbm, ⟨48, _⟩ => ⟨S1000000, .i32⟩
  | .hbm, ⟨49, _⟩ => ⟨S1000000x1, .i32⟩
  | .hbm, ⟨50, _⟩ => ⟨S1000000x128, .f32⟩
  | .hbm, ⟨51, _⟩ => ⟨S_, .f32⟩
  | .hbm, ⟨52, _⟩ => ⟨S50000x128, .f32⟩
  | .hbm, ⟨53, _⟩ => ⟨S1000000x1, .i32⟩
  | .hbm, ⟨54, _⟩ => ⟨S50000x128, .f32⟩
  | .hbm, ⟨55, _⟩ => ⟨S_, .f32⟩
  | .hbm, ⟨56, _⟩ => ⟨S1000000, .f32⟩
  | .hbm, ⟨57, _⟩ => ⟨S_, .f32⟩
  | .hbm, ⟨58, _⟩ => ⟨S50000, .f32⟩
  | .hbm, ⟨59, _⟩ => ⟨S1000000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S_, .f32⟩
  | .hbm, ⟨65, _⟩ => ⟨S50000, .f32⟩
  | .hbm, ⟨66, _⟩ => ⟨S50000, .f32⟩
  | .hbm, ⟨67, _⟩ => ⟨S50000x1, .f32⟩
  | .hbm, ⟨68, _⟩ => ⟨S128x128, .f32⟩
  | .hbm, ⟨69, _⟩ => ⟨S128x128, .bf16⟩
  | .hbm, ⟨70, _⟩ => ⟨S128x128, .f32⟩
  | .hbm, ⟨71, _⟩ => ⟨S128x128, .bf16⟩
  | .hbm, ⟨72, _⟩ => ⟨S128x1, .f32⟩
  | .hbm, ⟨73, _⟩ => ⟨S128x1, .bf16⟩
  | .hbm, ⟨74, _⟩ => ⟨S1x128, .f32⟩
  | .hbm, ⟨75, _⟩ => ⟨S1x1, .f32⟩
  | .hbm, ⟨76, _⟩ => ⟨S200000x1, .f32⟩
  | .hbm, ⟨77, _⟩ => ⟨S128x128, .f32⟩
  | .hbm, ⟨78, _⟩ => ⟨S128x128, .bf16⟩
  | .hbm, ⟨79, _⟩ => ⟨S128x128, .f32⟩
  | .hbm, ⟨80, _⟩ => ⟨S128x128, .bf16⟩
  | .hbm, ⟨81, _⟩ => ⟨S128x1, .f32⟩
  | .hbm, ⟨82, _⟩ => ⟨S128x1, .bf16⟩
  | .hbm, ⟨83, _⟩ => ⟨S1x128, .f32⟩
  | .hbm, ⟨84, _⟩ => ⟨S1x1, .f32⟩
  | .hbm, ⟨85, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S1x128, .f32⟩
  | .local _ .vmem, ⟨8, _⟩ => ⟨S128x128, .bf16⟩
  | .local _ .vmem, ⟨9, _⟩ => ⟨S128x1, .bf16⟩
  | .local _ .vmem, ⟨10, _⟩ => ⟨S1x1, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S5000x128, .f32⟩
  | .local _ .vmem, ⟨18, _⟩ => ⟨S5000x128, .f32⟩
  | .local _ .vmem, ⟨19, _⟩ => ⟨S128x128, .bf16⟩
  | .local _ .vmem, ⟨20, _⟩ => ⟨S1x128, .f32⟩
  | .local _ .vmem, ⟨21, _⟩ => ⟨S128x128, .bf16⟩
  | .local _ .vmem, ⟨22, _⟩ => ⟨S128x1, .bf16⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_cst : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_cst_1 : Ref sig .tc := ⟨.hbm, 29, rfl⟩
abbrev main_call0_v10 : Ref sig .tc := ⟨.hbm, 30, rfl⟩
abbrev main_call0_cst_2 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_cst_3 : Ref sig .tc := ⟨.hbm, 35, rfl⟩
abbrev main_call0_v14 : Ref sig .tc := ⟨.hbm, 36, rfl⟩
abbrev main_call0_v15 : Ref sig .tc := ⟨.hbm, 37, rfl⟩
abbrev main_call0_cst_4 : Ref sig .tc := ⟨.hbm, 38, rfl⟩
abbrev main_call0_v16 : Ref sig .tc := ⟨.hbm, 39, rfl⟩
abbrev main_call0_v17 : Ref sig .tc := ⟨.hbm, 40, rfl⟩
abbrev main_call0_v18 : Ref sig .tc := ⟨.hbm, 41, rfl⟩
abbrev main_call0_c_5 : Ref sig .tc := ⟨.hbm, 42, rfl⟩
abbrev main_call0_v19 : Ref sig .tc := ⟨.hbm, 43, rfl⟩
abbrev main_call0_v20 : Ref sig .tc := ⟨.hbm, 44, rfl⟩
abbrev main_call0_c_6 : Ref sig .tc := ⟨.hbm, 45, rfl⟩
abbrev main_call0_v21 : Ref sig .tc := ⟨.hbm, 46, rfl⟩
abbrev main_call0_v22 : Ref sig .tc := ⟨.hbm, 47, rfl⟩
abbrev main_call0_v23 : Ref sig .tc := ⟨.hbm, 48, rfl⟩
abbrev main_call0_v24 : Ref sig .tc := ⟨.hbm, 49, rfl⟩
abbrev main_call0_v25 : Ref sig .tc := ⟨.hbm, 50, rfl⟩
abbrev main_call0_cst_7 : Ref sig .tc := ⟨.hbm, 51, rfl⟩
abbrev main_call0_v26 : Ref sig .tc := ⟨.hbm, 52, rfl⟩
abbrev main_call0_v27 : Ref sig .tc := ⟨.hbm, 53, rfl⟩
abbrev main_call0_v28 : Ref sig .tc := ⟨.hbm, 54, rfl⟩
abbrev main_call0_cst_8 : Ref sig .tc := ⟨.hbm, 55, rfl⟩
abbrev main_call0_v29 : Ref sig .tc := ⟨.hbm, 56, rfl⟩
abbrev main_call0_cst_9 : Ref sig .tc := ⟨.hbm, 57, rfl⟩
abbrev main_call0_v30 : Ref sig .tc := ⟨.hbm, 58, rfl⟩
abbrev main_call0_v31 : Ref sig .tc := ⟨.hbm, 59, rfl⟩
abbrev main_call0_v32 : Ref sig .tc := ⟨.hbm, 60, rfl⟩
abbrev main_call0_cst_10 : Ref sig .tc := ⟨.hbm, 61, rfl⟩
abbrev main_call0_v33 : Ref sig .tc := ⟨.hbm, 62, rfl⟩
abbrev main_call0_v34 : Ref sig .tc := ⟨.hbm, 63, rfl⟩
abbrev main_call0_cst_11 : Ref sig .tc := ⟨.hbm, 64, rfl⟩
abbrev main_call0_v35 : Ref sig .tc := ⟨.hbm, 65, rfl⟩
abbrev main_call0_v36 : Ref sig .tc := ⟨.hbm, 66, rfl⟩
abbrev main_call0_v37 : Ref sig .tc := ⟨.hbm, 67, rfl⟩
abbrev main_call0_v38 : Ref sig .tc := ⟨.hbm, 68, rfl⟩
abbrev main_call0_v39 : Ref sig .tc := ⟨.hbm, 69, rfl⟩
abbrev main_call0_v40 : Ref sig .tc := ⟨.hbm, 70, rfl⟩
abbrev main_call0_v41 : Ref sig .tc := ⟨.hbm, 71, rfl⟩
abbrev main_call0_v42 : Ref sig .tc := ⟨.hbm, 72, rfl⟩
abbrev main_call0_v43 : Ref sig .tc := ⟨.hbm, 73, rfl⟩
abbrev main_call0_v44 : Ref sig .tc := ⟨.hbm, 74, rfl⟩
abbrev main_call0_v45 : Ref sig .tc := ⟨.hbm, 75, rfl⟩
abbrev main_v0_0 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_v50 : Ref sig .tc := ⟨.hbm, 80, rfl⟩
abbrev main_call0_v51 : Ref sig .tc := ⟨.hbm, 81, rfl⟩
abbrev main_call0_v52 : Ref sig .tc := ⟨.hbm, 82, rfl⟩
abbrev main_call0_v53 : Ref sig .tc := ⟨.hbm, 83, rfl⟩
abbrev main_call0_v54 : Ref sig .tc := ⟨.hbm, 84, rfl⟩
abbrev main_v0_1 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x1 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  shapeCasts_S200000_S200000x1 : S200000.ShapeCasts S200000x1
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  transposes_S128x128_S128x128_1_0 : S128x128.Transposes [1, 0] S128x128
  bitsLt_bf16_f32 : FTy.bits .bf16 < FTy.bits .f32
  transposes_S1x128_S128x1_1_0 : S1x128.Transposes [1, 0] S128x1
  shapeCasts_S128_S1x128 : S128.ShapeCasts S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S200000x128.size a
  hwx0_0 : ∀ i : grid0.Coords, EltTy.bits .f32 = 32 ∨ (Rect.block (s := S200000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S200000x1.size a
  hwx0_1 : ∀ i : grid0.Coords, EltTy.bits .f32 = 32 ∨ (Rect.block (s := S200000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S200000x128.size a
  hwx0_2 : ∀ i : grid0.Coords, EltTy.bits .f32 = 32 ∨ (Rect.block (s := S200000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .bf16 = 32 ∨ (Rect.block (s := S128x1) S128x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S200000x1.size a
  hwx0_8 : ∀ i : grid0.Coords, EltTy.bits .f32 = 32 ∨ (Rect.block (s := S200000x1) S5000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x1.size a ≤ S128x1.size a
  hwx1_6 : ∀ i : grid1.Coords, EltTy.bits .bf16 = 32 ∨ (Rect.block (s := S128x1) S128x1.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S50000x1.size a
  hwx1_8 : ∀ i : grid1.Coords, EltTy.bits .f32 = 32 ∨ (Rect.block (s := S50000x1) S5000x1.size (cc1_transform_8 i) (hinb1_8 i)).WholeWords (EltTy.packing .f32)

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_call0_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v18) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v39) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v44) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v41) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v43) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v45) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S5000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_call0_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v37) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v50) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v52) S128x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v54) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v0_1) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S200000x128 : Shape := ⟨2, ![200000, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S200000 : Shape := ⟨1, ![200000]⟩
abbrev S200000x1 : Shape := ⟨2, ![200000, 1]⟩
abbrev S50000 : Shape := ⟨1, ![50000]⟩
abbrev S50000x1 : Shape := ⟨2, ![50000, 1]⟩
abbrev S128x1 : Shape := ⟨2, ![128, 1]⟩
abbrev S1x1 : Shape := ⟨2, ![1, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S200000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1, .f32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x128, .f32⟩
  | .hbm, ⟨25, _⟩ => ⟨S_, .f32⟩
  | .hbm, ⟨26, _⟩ => ⟨S200000x128, .f32⟩
  | .hbm, ⟨27, _⟩ => ⟨S1000000x1, .i32⟩
  | .hbm, ⟨28, _⟩ => ⟨S200000x128, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S200000, .f32⟩
  | .hbm, ⟨33, _⟩ => ⟨S1000000x1, .i32⟩
  | .hbm, ⟨34, _⟩ => ⟨S200000, .f32⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000x1, .f32⟩
  | .hbm, ⟨39, _⟩ => ⟨S200000x128, .f32⟩
  | .hbm, ⟨40, _⟩ => ⟨S200000x128, .f32⟩
  | .hbm, ⟨41, _⟩ => ⟨S128x128, .f32⟩
  | .hbm, ⟨42, _⟩ => ⟨S200000x128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S128x128, .f32⟩
  | .hbm, ⟨47, _⟩ => ⟨S200000x128, .f32⟩
  | .hbm, ⟨48, _⟩ => ⟨S200000x128, .f32⟩
  | .hbm, ⟨49, _⟩ => ⟨S_, .i32⟩
  | .hbm, ⟨50, _⟩ => ⟨S1000000, .i32⟩
  | .hbm, ⟨51, _⟩ => ⟨S1000000, .i1⟩
  | .hbm, ⟨52, _⟩ => ⟨S_, .i32⟩
  | .hbm, ⟨53, _⟩ => ⟨S1000000, .i32⟩
  | .hbm, ⟨54, _⟩ => ⟨S1000000, .i32⟩
  | .hbm, ⟨55, _⟩ => ⟨S1000000, .i32⟩
  | .hbm, ⟨56, _⟩ => ⟨S1000000x1, .i32⟩
  | .hbm, ⟨57, _⟩ => ⟨S1000000x128, .f32⟩
  | .hbm, ⟨58, _⟩ => ⟨S_, .f32⟩
  | .hbm, ⟨59, _⟩ => ⟨S50000x128, .f32⟩
  | .hbm, ⟨60, _⟩ => ⟨S1000000x1, .i32⟩
  | .hbm, ⟨61, _⟩ => ⟨S50000x128, .f32⟩
  | .hbm, ⟨62, _⟩ => ⟨S_, .f32⟩
  | .hbm, ⟨63, _⟩ => ⟨S1000000, .f32⟩
  | .hbm, ⟨64, _⟩ => ⟨S_, .f32⟩
  | .hbm, ⟨65, _⟩ => ⟨S50000, .f32⟩
  | .hbm, ⟨66, _⟩ => ⟨S1000000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S128x128, .f32⟩
  | .hbm, ⟨80, _⟩ => ⟨S50000x128, .f32⟩
  | .hbm, ⟨81, _⟩ => ⟨S50000x128, .f32⟩
  | .hbm, ⟨82, _⟩ => ⟨S_, .f32⟩
  | .hbm, ⟨83, _⟩ => ⟨S200000x128, .f32⟩
  | .hbm, ⟨84, _⟩ => ⟨S200000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S128x1, .f32⟩
  | .hbm, ⟨89, _⟩ => ⟨S200000x1, .f32⟩
  | .hbm, ⟨90, _⟩ => ⟨S1x1, .f32⟩
  | .hbm, ⟨91, _⟩ => ⟨S200000x1, .f32⟩
  | .hbm, ⟨92, _⟩ => ⟨S200000x1, .f32⟩
  | .hbm, ⟨93, _⟩ => ⟨S_, .f32⟩
  | .hbm, ⟨94, _⟩ => ⟨S_, .f32⟩
  | .hbm, ⟨95, _⟩ => ⟨S200000x1, .f32⟩
  | .hbm, ⟨96, _⟩ => ⟨S200000x1, .i1⟩
  | .hbm, ⟨97, _⟩ => ⟨S_, .f32⟩
  | .hbm, ⟨98, _⟩ => ⟨S200000x1, .f32⟩
  | .hbm, ⟨99, _⟩ => ⟨S200000x1, .f32⟩
  | .hbm, ⟨100, _⟩ => ⟨S200000x1, .f32⟩
  | .hbm, ⟨101, _⟩ => ⟨S128x1, .f32⟩
  | .hbm, ⟨102, _⟩ => ⟨S50000x1, .f32⟩
  | .hbm, ⟨103, _⟩ => ⟨S1x1, .f32⟩
  | .hbm, ⟨104, _⟩ => ⟨S50000x1, .f32⟩
  | .hbm, ⟨105, _⟩ => ⟨S50000x1, .f32⟩
  | .hbm, ⟨106, _⟩ => ⟨S_, .f32⟩
  | .hbm, ⟨107, _⟩ => ⟨S_, .f32⟩
  | .hbm, ⟨108, _⟩ => ⟨S50000x1, .f32⟩
  | .hbm, ⟨109, _⟩ => ⟨S50000x1, .i1⟩
  | .hbm, ⟨110, _⟩ => ⟨S_, .f32⟩
  | .hbm, ⟨111, _⟩ => ⟨S50000x1, .f32⟩
  | .hbm, ⟨112, _⟩ => ⟨S50000x1, .f32⟩
  | .hbm, ⟨113, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_4 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_7 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call0_cst : Ref sig .tc := ⟨.hbm, 82, rfl⟩
abbrev main_call0_v0 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_10 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_11 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_v67 : Ref sig .tc := ⟨.hbm, 113, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  transposes_S128x128_S128x128_1_0 : S128x128.Transposes [1, 0] S128x128
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  transposes_S1x128_S128x1_1_0 : S1x128.Transposes [1, 0] S128x1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x128_S1000000x1_S1000000x128_1_0_n_n_0_1_1128_wf : GatherDims.WF S50000x128 S1000000x1 S1000000x128 [1] [0] [] [0] [] 1 ![1, 128]
  scatter_S200000x128_S1000000x1_S1000000x128_1_0_0_1_wf : ScatterDims.WF S200000x128 S1000000x1 S1000000x128 [1] [0] [0] 1
  scatter_S200000_S1000000x1_S1000000_n_0_0_1_wf : ScatterDims.WF S200000 S1000000x1 S1000000 [] [0] [0] 1
  dot_S200000x128_S128x128_S200000x128_1_0_0_1_n_n_wf : DotDims.WF S200000x128 S128x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S50000x128_S1000000x1_S1000000x128_1_0_0_1_wf : ScatterDims.WF S50000x128 S1000000x1 S1000000x128 [1] [0] [0] 1
  scatter_S50000_S1000000x1_S1000000_n_0_0_1_wf : ScatterDims.WF S50000 S1000000x1 S1000000 [] [0] [0] 1
  dot_S50000x128_S128x128_S50000x128_1_0_0_1_n_n_wf : DotDims.WF S50000x128 S128x128 S50000x128 [1] [0] [0] [1] [] []
  dot_S200000x128_S128x1_S200000x1_1_0_0_1_n_n_wf : DotDims.WF S200000x128 S128x1 S200000x1 [1] [0] [0] [1] [] []
  dot_S50000x128_S128x1_S50000x1_1_0_0_1_n_n_wf : DotDims.WF S50000x128 S128x1 S50000x1 [1] [0] [0] [1] [] []

variable [Facts₀]

def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with its two result arrays named.

  The program is four stretches: the host operations that build each relation's summed neighbour features and
  reciprocal counts and re-lay the first relation's weights, the first relation's tiled launch, the host operations that
  re-lay the second relation's weights, the second launch. Every weakly fair execution terminates without a fault; at
  the end every unscoped buffer holds the last boundary's contents. Here that is read at the two result arrays as
  well as at the sixteen arguments, which end as launched.
-/
import proofs.«152094_j29154238005713_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two result arrays end at the last
    boundary's contents and the arguments as launched. -/
theorem run_values : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.KRun

end
-- ==== Proof.SageSpec.lean ====
/-
  One layer of mean-aggregation message passing followed by a scalar head, as a function of arrays.

  For a destination node r with summed neighbour features S(r,·), neighbour count cnt(r) and own features X(r,·):
    mean(r,k)   = S(r,k) / max(cnt(r), 1)
    hidden(r,q) = max( (∑ₖ mean(r,k)·Wl(k,q) + ∑ₖ X(r,k)·Wr(k,q)) + bl(q), 0 )
    out(r)      = leaky( ∑_q hidden(r,q)·Wh(q,0) + bh )
  where leaky(y) is y for y > 0 and 0.001·y otherwise. The float literals stay as the words the programs print; only
  the zero word and the word of 1 are ever evaluated. Everything is over the extended reals with the exact operations.
  Two facts join the two spellings the programs use: a product with the reciprocal of max(cnt,1) is the quotient by it
  (max(cnt,1) is never zero), and the two spellings of the leaky rectifier (strict test, slope on the right; weak test,
  slope on the left) agree because they only differ at y = 0, where both give 0.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- The printed word of 0. -/
abbrev zeroW : EReal := Ideal.ofBits .f32 0x00000000#32
/-- The printed word of 1. -/
abbrev oneW : EReal := Ideal.ofBits .f32 0x3F800000#32
/-- The printed word of the rectifier's negative slope. -/
abbrev slopeW : EReal := Ideal.ofBits .f32 0x3A83126F#32

/-- The word of 1 denotes the real number 1. -/
theorem oneW_eq : oneW = 1 := by
  simp [oneW, Ideal.ofBits, Ideal.ieee, -EReal.coe_mul]; norm_num

/-- The leaky rectifier, in the form with a strict test and the slope on the right. -/
def leaky (y : EReal) : EReal := Scalar.select (Ideal.cmp .ogt y zeroW) y (y * slopeW)

/-- The form with a weak test and the slope on the left is the same function: the two differ only at 0, where the
    first gives 0 · slope = 0 and the second gives 0. -/
theorem leaky_ge (y : EReal) : Scalar.select (Ideal.cmp .oge y zeroW) y (slopeW * y) = leaky y := by
  unfold leaky
  have hz : zeroW = 0 := Ideal.ofBits_zero_f32
  rw [hz]
  rcases lt_trichotomy (0 : EReal) y with h | h | h
  · have h1 : Ideal.cmp .oge y 0 = 1#1 := by simp [Ideal.cmp, h.le]
    have h2 : Ideal.cmp .ogt y 0 = 1#1 := by simp [Ideal.cmp, h]
    rw [h1, h2, select_one, select_one]
  · subst h
    have h1 : Ideal.cmp .oge (0 : EReal) 0 = 1#1 := by simp [Ideal.cmp]
    have h2 : Ideal.cmp .ogt (0 : EReal) 0 = 0#1 := by simp [Ideal.cmp]
    rw [h1, h2, select_one, select_zero, zero_mul]
  · have h1 : Ideal.cmp .oge y 0 = 0#1 := by simp [Ideal.cmp, not_le.mpr h]
    have h2 : Ideal.cmp .ogt y 0 = 0#1 := by simp [Ideal.cmp, not_lt.mpr h.le]
    rw [h1, h2, select_zero, select_zero, mul_comm]

/-- A product with the reciprocal of max(c, 1) is the quotient by max(c, 1): the maximum is at least 1, so never 0, and
    off zero the quotient is the product with the inverse, 1 / y being that inverse. -/
theorem mul_recip_max (s c : EReal) : s * Ideal.div oneW (max c oneW) = Ideal.div s (max c oneW) := by
  have h1 : (0 : EReal) < oneW := by rw [oneW_eq]; exact zero_lt_one
  have hne : max c oneW ≠ 0 := (lt_of_lt_of_le h1 (le_max_right c oneW)).ne'
  rw [Ideal.div, if_neg hne, Ideal.div, if_neg hne, oneW_eq, one_mul]

/-- A hidden unit of one node: the rectified sum of the neighbour term, the root term and the bias. -/
def hidden (mean x : Fin 128 → EReal) (WlT WrT : (⟨2, ![128, 128]⟩ : Shape).Idx → EReal) (bl : Fin 128 → EReal)
    (q : Fin 128) : EReal :=
  max ((∑ k : Fin 128, mean k * WlT (ix2 k q) + ∑ k : Fin 128, x k * WrT (ix2 k q)) + bl q) zeroW

/-- The same unit with the bias added before the root term: addition of extended reals is commutative and
    associative, at the infinities too. -/
theorem hidden_bias_first (mean x : Fin 128 → EReal) (WlT WrT : (⟨2, ![128, 128]⟩ : Shape).Idx → EReal)
    (bl : Fin 128 → EReal) (q : Fin 128) :
    max ((∑ k : Fin 128, mean k * WlT (ix2 k q) + bl q) + ∑ k : Fin 128, x k * WrT (ix2 k q)) zeroW
      = hidden mean x WlT WrT bl q := by
  unfold hidden
  rw [add_right_comm]

/-- One node's output: the head's product with the hidden units, its bias, the leaky rectifier. -/
def nodeOut (mean x : Fin 128 → EReal) (WlT WrT : (⟨2, ![128, 128]⟩ : Shape).Idx → EReal) (bl : Fin 128 → EReal)
    (WhT : (⟨2, ![128, 1]⟩ : Shape).Idx → EReal) (bh : EReal) : EReal :=
  leaky ((∑ q : Fin 128, hidden mean x WlT WrT bl q * WhT (ix2 q (0 : Fin 1))) + bh)

/-- The row of an index of an n × 1 column. -/
abbrev row {n : Nat} (i : (⟨2, ![n, 1]⟩ : Shape).Idx) : Fin n := ⟨(i 0).val, (i 0).isLt⟩

/-- The whole layer: every node's output from the summed neighbour features, the counts, the nodes' own features and
    the weights. -/
def head {n : Nat} (S X : (⟨2, ![n, 128]⟩ : Shape).Idx → EReal) (cnt : (⟨1, ![n]⟩ : Shape).Idx → EReal)
    (WlT WrT : (⟨2, ![128, 128]⟩ : Shape).Idx → EReal) (bl : (⟨1, ![128]⟩ : Shape).Idx → EReal)
    (WhT : (⟨2, ![128, 1]⟩ : Shape).Idx → EReal) (bh : (⟨1, ![1]⟩ : Shape).Idx → EReal) :
    (⟨2, ![n, 1]⟩ : Shape).Idx → EReal :=
  fun i => nodeOut (fun k => Ideal.div (S (ix2 (row i) k)) (max (cnt (ix1 (row i))) oneW)) (fun k => X (ix2 (row i) k))
    WlT WrT (fun q => bl (ix1 q)) WhT (bh (ix1 (0 : Fin 1)))

/-- The layer at node r. -/
theorem head_apply {n : Nat} (S X : (⟨2, ![n, 128]⟩ : Shape).Idx → EReal) (cnt : (⟨1, ![n]⟩ : Shape).Idx → EReal)
    (WlT WrT : (⟨2, ![128, 128]⟩ : Shape).Idx → EReal) (bl : (⟨1, ![128]⟩ : Shape).Idx → EReal)
    (WhT : (⟨2, ![128, 1]⟩ : Shape).Idx → EReal) (bh : (⟨1, ![1]⟩ : Shape).Idx → EReal) (r : Fin n) (u : Fin 1) :
    head S X cnt WlT WrT bl WhT bh (ix2 r u)
      = nodeOut (fun k => Ideal.div (S (ix2 r k)) (max (cnt (ix1 r)) oneW)) (fun k => X (ix2 r k))
          WlT WrT (fun q => bl (ix1 q)) WhT (bh (ix1 (0 : Fin 1))) := rfl

end Cert.Sage

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelBody.lean ====
/-
  The kernel body's arithmetic, read at one row of a block.

  A grid point works on a block of 5000 destination nodes. From the block of summed neighbour features s, the column
  of reciprocal counts c, the block of the nodes' own features x, the two re-laid weight matrices, the bias row, the
  head's column and its bias, the body computes, for the node in row p of the block,
    leaky( ∑_q max( (∑ₖ (s(p,k)·c(p))·Wl(k,q) + ∑ₖ x(p,k)·Wr(k,q)) + bl(q), 0 ) · Wh(q,0) + bh ).
  The narrowing of the matrix unit's operands is the identity at the exact values; a product into a zero accumulator
  is the plain sum of products; a column broadcast along its rows and a row broadcast down the rows read their one
  free coordinate. Both launches run the same body.
-/
import proofs.«152094_j29154238005713_2_alg».proof.Proof.Gen.KernelIdeal.Skeleton
import proofs.«152094_j29154238005713_2_alg».proof.Proof.SageSpec
import proofs.«152094_j29154238005713_2_alg».proof.Proof.LibPlainDot
import proofs.«152094_j29154238005713_2_alg».proof.Proof.LibKeepdims
import proofs.«152094_j29154238005713_2_alg».proof.Proof.LibRowBroadcasts
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable (s : FVec Ideal S5000x128 .f32) (c : FVec Ideal S5000x1 .f32) (x : FVec Ideal S5000x128 .f32)
  (wl wr : FVec Ideal S128x128 .bf16) (bl : FVec Ideal S1x128 .f32) (wh : FVec Ideal S128x1 .bf16) (bh : FVec Ideal S1x1 .f32)

/-- The block of means: each row of sums scaled by its reciprocal count. -/
def meanB : FVec Ideal S5000x128 .f32 :=
  mulf (shapeCast S5000x128 s shapeCasts_S5000x128_S5000x128)
    (broadcastTo S5000x128 (shapeCast S5000x1 c shapeCasts_S5000x1_S5000x1) broadcasts_S5000x1_S5000x128)

/-- The block before the rectifier: neighbour product plus root product, then the bias row. -/
def preB : FVec Ideal S5000x128 .f32 :=
  addf (addf
      (matmul dot_S5000x128_S128x128_S5000x128_1_0_0_1_n_n none (truncf .bf16 (meanB s c) bitsLt_bf16_f32)
        (shapeCast S128x128 wl shapeCasts_S128x128_S128x128) (constant S5000x128 .f32 0x00000000#32))
      (matmul dot_S5000x128_S128x128_S5000x128_1_0_0_1_n_n none (truncf .bf16 x bitsLt_bf16_f32)
        (shapeCast S128x128 wr shapeCasts_S128x128_S128x128) (constant S5000x128 .f32 0x00000000#32)))
    (broadcastTo S5000x128 (shapeCast S1x128 bl shapeCasts_S1x128_S1x128) broadcasts_S1x128_S5000x128)

/-- The block of hidden units. -/
def hidB : FVec Ideal S5000x128 .f32 :=
  maximumf (preB s c x wl wr bl) (broadcast S5000x128 (Scalar.ofBits .f32 0x00000000#32))

/-- The column before the leaky rectifier. -/
def outB : FVec Ideal S5000x1 .f32 :=
  addf (matmul dot_S5000x128_S128x1_S5000x1_1_0_0_1_n_n none (truncf .bf16 (hidB s c x wl wr bl) bitsLt_bf16_f32)
      (shapeCast S128x1 wh shapeCasts_S128x1_S128x1) (constant S5000x1 .f32 0x00000000#32))
    (broadcastTo S5000x1 (shapeCast S1x1 bh shapeCasts_S1x1_S1x1) broadcasts_S1x1_S5000x1)

/-- The first launch's body is these stages followed by the leaky rectifier. -/
theorem pay0_eq : k0_pay1 (F := Ideal) s c x wl wr bl wh bh
    = select (cmpf .ogt (outB s c x wl wr bl wh bh) (broadcast S5000x1 (Scalar.ofBits .f32 0x00000000#32)))
        (outB s c x wl wr bl wh bh)
        (mulf (outB s c x wl wr bl wh bh) (broadcast S5000x1 (Scalar.ofBits .f32 0x3A83126F#32))) := rfl

/-- So is the second launch's. -/
theorem pay1_eq : k1_pay1 (F := Ideal) s c x wl wr bl wh bh
    = select (cmpf .ogt (outB s c x wl wr bl wh bh) (broadcast S5000x1 (Scalar.ofBits .f32 0x00000000#32)))
        (outB s c x wl wr bl wh bh)
        (mulf (outB s c x wl wr bl wh bh) (broadcast S5000x1 (Scalar.ofBits .f32 0x3A83126F#32))) := rfl

/-- A mean: the sum times the row's reciprocal count. -/
theorem meanB_apply (p : Fin 5000) (k : Fin 128) : meanB s c (ix2 p k) = s (ix2 p k) * c (ix2 p (0 : Fin 1)) := by
  unfold meanB
  rw [shapeCast_self, shapeCast_self, mulf_apply]
  exact congrArg (s (ix2 p k) * ·) (Cert.Lib.Keepdims.bcastCol_apply c broadcasts_S5000x1_S5000x128 p k)

/-- Before the rectifier at (p, q). -/
theorem preB_apply (p : Fin 5000) (q : Fin 128) :
    preB s c x wl wr bl (ix2 p q)
      = (∑ k : Fin 128, (s (ix2 p k) * c (ix2 p (0 : Fin 1))) * wl (ix2 k q) + ∑ k : Fin 128, x (ix2 p k) * wr (ix2 k q))
        + bl (ix2 (0 : Fin 1) q) := by
  unfold preB
  rw [shapeCast_self, shapeCast_self, shapeCast_self, addf_apply, addf_apply]
  have e1 := Cert.Lib.PlainDot.matmul_zero_apply dot_S5000x128_S128x128_S5000x128_1_0_0_1_n_n_wf none
    (truncf .bf16 (meanB s c) bitsLt_bf16_f32) wl p q
  have e2 := Cert.Lib.PlainDot.matmul_zero_apply dot_S5000x128_S128x128_S5000x128_1_0_0_1_n_n_wf none
    (truncf .bf16 x bitsLt_bf16_f32) wr p q
  have e3 := Cert.Lib.Rows.bcastRow_apply bl broadcasts_S1x128_S5000x128 p q
  refine (congrArg₂ (· + ·) (congrArg₂ (· + ·) e1 e2) e3).trans ?_
  refine congrArg₂ (· + ·) (congrArg₂ (· + ·) (Finset.sum_congr rfl fun k _ => ?_) rfl) rfl
  exact congrArg (· * wl (ix2 k q)) (meanB_apply s c p k)

/-- A hidden unit at (p, q) is the layer's hidden unit of row p's mean and features. -/
theorem hidB_apply (p : Fin 5000) (q : Fin 128) :
    hidB s c x wl wr bl (ix2 p q)
      = Cert.Sage.hidden (fun k => s (ix2 p k) * c (ix2 p (0 : Fin 1))) (fun k => x (ix2 p k)) wl wr
          (fun q => bl (ix2 (0 : Fin 1) q)) q := by
  unfold hidB Cert.Sage.hidden
  rw [maximumf_apply, preB_apply]
  rfl

/-- The column before the leaky rectifier at row p. -/
theorem outB_apply (p : Fin 5000) (u : Fin 1) :
    outB s c x wl wr bl wh bh (ix2 p u)
      = (∑ q : Fin 128, Cert.Sage.hidden (fun k => s (ix2 p k) * c (ix2 p (0 : Fin 1))) (fun k => x (ix2 p k)) wl wr
          (fun q => bl (ix2 (0 : Fin 1) q)) q * wh (ix2 q (0 : Fin 1))) + bh (ix2 (0 : Fin 1) (0 : Fin 1)) := by
  have hu : u = 0 := Subsingleton.elim _ _
  subst hu
  unfold outB
  rw [shapeCast_self, shapeCast_self, addf_apply]
  have e1 := Cert.Lib.PlainDot.matmul_zero_apply dot_S5000x128_S128x1_S5000x1_1_0_0_1_n_n_wf none
    (truncf .bf16 (hidB s c x wl wr bl) bitsLt_bf16_f32) wh p (0 : Fin 1)
  have e2 := Cert.Lib.Rows.bcastRow_apply bh broadcasts_S1x1_S5000x1 p (0 : Fin 1)
  refine (congrArg₂ (· + ·) e1 e2).trans ?_
  refine congrArg₂ (· + ·) (Finset.sum_congr rfl fun q _ => ?_) rfl
  exact congrArg (· * wh (ix2 q (0 : Fin 1))) (hidB_apply s c x wl wr bl p q)

/-- The stages followed by the leaky rectifier, at row p: the layer's output for that row. -/
theorem leakyB_apply (p : Fin 5000) (u : Fin 1) :
    select (cmpf .ogt (outB s c x wl wr bl wh bh) (broadcast S5000x1 (Scalar.ofBits .f32 0x00000000#32)))
        (outB s c x wl wr bl wh bh)
        (mulf (outB s c x wl wr bl wh bh) (broadcast S5000x1 (Scalar.ofBits .f32 0x3A83126F#32))) (ix2 p u)
      = Cert.Sage.nodeOut (fun k => s (ix2 p k) * c (ix2 p (0 : Fin 1))) (fun k => x (ix2 p k)) wl wr
          (fun q => bl (ix2 (0 : Fin 1) q)) wh (bh (ix2 (0 : Fin 1) (0 : Fin 1))) := by
  unfold Cert.Sage.nodeOut Cert.Sage.leaky
  rw [← outB_apply s c x wl wr bl wh bh p u]
  rfl

/-- The first launch's body at row p of its block. -/
theorem pay0_apply (p : Fin 5000) (u : Fin 1) :
    k0_pay1 (F := Ideal) s c x wl wr bl wh bh (ix2 p u)
      = Cert.Sage.nodeOut (fun k => s (ix2 p k) * c (ix2 p (0 : Fin 1))) (fun k => x (ix2 p k)) wl wr
          (fun q => bl (ix2 (0 : Fin 1) q)) wh (bh (ix2 (0 : Fin 1) (0 : Fin 1))) := by
  rw [pay0_eq]; exact leakyB_apply s c x wl wr bl wh bh p u

/-- The second launch's body at row p of its block. -/
theorem pay1_apply (p : Fin 5000) (u : Fin 1) :
    k1_pay1 (F := Ideal) s c x wl wr bl wh bh (ix2 p u)
      = Cert.Sage.nodeOut (fun k => s (ix2 p k) * c (ix2 p (0 : Fin 1))) (fun k => x (ix2 p k)) wl wr
          (fun q => bl (ix2 (0 : Fin 1) q)) wh (bh (ix2 (0 : Fin 1) (0 : Fin 1))) := by
  rw [pay1_eq]; exact leakyB_apply s c x wl wr bl wh bh p u

end Cert.KernelIdeal.Body

end
-- ==== Proof.KernelLaunch0.lean ====
/-
  The first launch's result array as one function of the arrays it finds.

  The launch walks 40 grid points. Point t stages rows 5000·t … 5000·t + 4999 of the summed neighbour features, of the
  column of reciprocal counts and of the destination nodes' own features, and the whole of each weight array; it runs
  the body and writes the 5000 results back to the same rows of the result column. Row p of point t's block is row
  5000·t + p of the arrays, the body's result there depends on that row alone, and the 40 row blocks tile the column,
  so the column ends holding the layer's output of every node. The reciprocal count times a sum is the quotient by the
  clamped count; the bias row and the head's bias are read at their one free coordinate.
-/
import proofs.«152094_j29154238005713_2_alg».proof.Proof.Gen.KernelIdeal.Frame
import proofs.«152094_j29154238005713_2_alg».proof.Proof.KernelBody
import Idealize.ShloMosaic.Lib.Pipeline.Value

set_option maxRecDepth 16384

noncomputable section

namespace Cert.KernelIdeal.Launch0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block (t, 0), the five
    whole inputs at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0) :=
  (by decide +kernel : ∀ t : Fin grid0.N, _)

theorem t_lt (t : Fin cfg0.N) : t.val < 40 := by
  have h : t.val < grid0.N := t.isLt
  rw [N_0] at h
  exact h

/-! ## Each input block as rows of its array -/

/-- The block of summed neighbour features at point t is rows 5000·t … of the array. -/
theorem blk0_apply (c : Dev nD) (t : Fin cfg0.N) (p : Fin 5000) (k : Fin 128) (r : Fin 200000)
    (hr : r.val = t.val * 5000 + p.val) :
    (iblk0 V c 0 t : FVec Ideal S5000x128 .f32) (ix2 p k) = (V c main_call0_v9 : S200000x128.Idx → EReal) (ix2 r k) := by
  obtain ⟨⟨e0, e1⟩, -⟩ := idx_facts t
  unfold iblk0
  rw [View.read_apply]
  show V c main_call0_v9 _ = V c main_call0_v9 _
  refine congrArg _ ?_
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The block of reciprocal counts at point t is rows 5000·t … of the column. -/
theorem blk1_apply (c : Dev nD) (t : Fin cfg0.N) (p : Fin 5000) (u : Fin 1) (r : Fin 200000)
    (hr : r.val = t.val * 5000 + p.val) :
    (iblk0 V c 1 t : FVec Ideal S5000x1 .f32) (ix2 p u) = (V c main_call0_v18 : S200000x1.Idx → EReal) (ix2 r u) := by
  obtain ⟨-, ⟨e0, e1⟩, -⟩ := idx_facts t
  unfold iblk0
  rw [View.read_apply]
  show V c main_call0_v18 _ = V c main_call0_v18 _
  refine congrArg _ ?_
  funext a
  apply Fin.ext
  match a with
  | ⟨0, _⟩ => show win0_1.index t (0 : Fin 2) * 5000 + 1 * p.val = r.val; rw [e0, hr]; omega
  | ⟨1, _⟩ => show win0_1.index t (1 : Fin 2) * 1 + 1 * u.val = u.val; rw [e1]; omega

/-- The block of the nodes' own features at point t is rows 5000·t … of the array. -/
theorem blk2_apply (c : Dev nD) (t : Fin cfg0.N) (p : Fin 5000) (k : Fin 128) (r : Fin 200000)
    (hr : r.val = t.val * 5000 + p.val) :
    (iblk0 V c 2 t : FVec Ideal S5000x128 .f32) (ix2 p k) = (V c main_arg1 : S200000x128.Idx → EReal) (ix2 r k) := by
  obtain ⟨-, -, ⟨e0, e1⟩, -⟩ := idx_facts t
  unfold iblk0
  rw [View.read_apply]
  show V c main_arg1 _ = V c main_arg1 _
  refine congrArg _ ?_
  funext a
  apply Fin.ext
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- A whole-array window's block is the array, at every point: the neighbour weights. -/
theorem blk3_eq (c : Dev nD) (t : Fin cfg0.N) :
    (iblk0 V c 3 t : FVec Ideal S128x128 .bf16) = (V c main_call0_v39 : S128x128.Idx → EReal) := by
  obtain ⟨-, -, -, ⟨e0, e1⟩, -⟩ := idx_facts t
  funext y
  unfold iblk0
  rw [View.read_apply]
  show V c main_call0_v39 _ = V c main_call0_v39 y
  refine congrArg _ ?_
  funext a
  apply Fin.ext
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

/-- … the bias row. -/
theorem blk4_eq (c : Dev nD) (t : Fin cfg0.N) :
    (iblk0 V c 4 t : FVec Ideal S1x128 .f32) = (V c main_call0_v44 : S1x128.Idx → EReal) := by
  obtain ⟨-, -, -, -, ⟨e0, e1⟩, -⟩ := idx_facts t
  funext y
  unfold iblk0
  rw [View.read_apply]
  show V c main_call0_v44 _ = V c main_call0_v44 y
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- … the root weights. -/
theorem blk5_eq (c : Dev nD) (t : Fin cfg0.N) :
    (iblk0 V c 5 t : FVec Ideal S128x128 .bf16) = (V c main_call0_v41 : S128x128.Idx → EReal) := by
  obtain ⟨-, -, -, -, -, ⟨e0, e1⟩, -⟩ := idx_facts t
  funext y
  unfold iblk0
  rw [View.read_apply]
  show V c main_call0_v41 _ = V c main_call0_v41 y
  refine congrArg _ ?_
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- … the head's column. -/
theorem blk6_eq (c : Dev nD) (t : Fin cfg0.N) :
    (iblk0 V c 6 t : FVec Ideal S128x1 .bf16) = (V c main_call0_v43 : S128x1.Idx → EReal) := by
  obtain ⟨-, -, -, -, -, -, ⟨e0, e1⟩, -⟩ := idx_facts t
  funext y
  unfold iblk0
  rw [View.read_apply]
  show V c main_call0_v43 _ = V c main_call0_v43 y
  refine congrArg _ ?_
  funext a
  apply Fin.ext
  match a with
  | ⟨0, _⟩ => show win0_6.index t (0 : Fin 2) * 128 + 1 * (y 0).val = (y 0).val; rw [e0]; omega
  | ⟨1, _⟩ => show win0_6.index t (1 : Fin 2) * 1 + 1 * (y 1).val = (y 1).val; rw [e1]; omega

/-- … the head's bias. -/
theorem blk7_eq (c : Dev nD) (t : Fin cfg0.N) :
    (iblk0 V c 7 t : FVec Ideal S1x1 .f32) = (V c main_call0_v45 : S1x1.Idx → EReal) := by
  obtain ⟨-, -, -, -, -, -, -, ⟨e0, e1⟩, -⟩ := idx_facts t
  funext y
  unfold iblk0
  rw [View.read_apply]
  show V c main_call0_v45 _ = V c main_call0_v45 y
  refine congrArg _ ?_
  funext a
  apply Fin.ext
  match a with
  | ⟨0, _⟩ => show win0_7.index t (0 : Fin 2) * 1 + 1 * (y 0).val = (y 0).val; rw [e0]; omega
  | ⟨1, _⟩ => show win0_7.index t (1 : Fin 2) * 1 + 1 * (y 1).val = (y 1).val; rw [e1]; omega

/-! ## One row of one point, over variables -/

/-- If a point's blocks are rows off … off + 4999 of arrays S, ci, X, with ci the reciprocal of the clamped count, and
    its weight blocks are the weight arrays, the body's result in row p is the layer's output of node off + p. -/
theorem point_row (S X : (⟨2, ![200000, 128]⟩ : Shape).Idx → EReal) (ci : (⟨2, ![200000, 1]⟩ : Shape).Idx → EReal)
    (cnt : (⟨1, ![200000]⟩ : Shape).Idx → EReal) (WlT WrT : (⟨2, ![128, 128]⟩ : Shape).Idx → EReal)
    (bl2 : (⟨2, ![1, 128]⟩ : Shape).Idx → EReal) (bl : (⟨1, ![128]⟩ : Shape).Idx → EReal)
    (WhT : (⟨2, ![128, 1]⟩ : Shape).Idx → EReal) (bh2 : (⟨2, ![1, 1]⟩ : Shape).Idx → EReal)
    (bh : (⟨1, ![1]⟩ : Shape).Idx → EReal)
    (hci : ∀ r : Fin 200000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1)))
    (b0 : FVec Ideal S5000x128 .f32) (b1 : FVec Ideal S5000x1 .f32) (b2 : FVec Ideal S5000x128 .f32)
    (p : Fin 5000) (u : Fin 1) (r : Fin 200000)
    (e0 : ∀ k : Fin 128, b0 (ix2 p k) = S (ix2 r k)) (e1 : b1 (ix2 p (0 : Fin 1)) = ci (ix2 r (0 : Fin 1)))
    (e2 : ∀ k : Fin 128, b2 (ix2 p k) = X (ix2 r k)) :
    k0_pay1 (F := Ideal) b0 b1 b2 WlT WrT bl2 WhT bh2 (ix2 p u)
      = Cert.Sage.head S X cnt WlT WrT bl WhT bh (ix2 r u) := by
  rw [Cert.KernelIdeal.Body.pay0_apply, Cert.Sage.head_apply]
  have hm : (fun k : Fin 128 => b0 (ix2 p k) * b1 (ix2 p (0 : Fin 1)))
      = fun k : Fin 128 => Ideal.div (S (ix2 r k)) (max (cnt (ix1 r)) Cert.Sage.oneW) :=
    funext fun k => by rw [e0 k, e1, hci r, Cert.Sage.mul_recip_max]
  have hx : (fun k : Fin 128 => b2 (ix2 p k)) = fun k : Fin 128 => X (ix2 r k) := funext e2
  have hb : (fun q : Fin 128 => bl2 (ix2 (0 : Fin 1) q)) = fun q : Fin 128 => bl (ix1 q) := funext hbl
  rw [hm, hx, hb, hbh]

/-! ## What a point writes back, the cover, the array -/

variable (S X : (⟨2, ![200000, 128]⟩ : Shape).Idx → EReal) (ci : (⟨2, ![200000, 1]⟩ : Shape).Idx → EReal)
    (cnt : (⟨1, ![200000]⟩ : Shape).Idx → EReal) (WlT WrT : (⟨2, ![128, 128]⟩ : Shape).Idx → EReal)
    (bl2 : (⟨2, ![1, 128]⟩ : Shape).Idx → EReal) (bl : (⟨1, ![128]⟩ : Shape).Idx → EReal)
    (WhT : (⟨2, ![128, 1]⟩ : Shape).Idx → EReal) (bh2 : (⟨2, ![1, 1]⟩ : Shape).Idx → EReal)
    (bh : (⟨1, ![1]⟩ : Shape).Idx → EReal)

/-- What point t writes back is block t of the layer's output column. -/
theorem flushed_eq (c : Dev nD)
    (h0 : (V c main_call0_v9 : S200000x128.Idx → EReal) = S) (h1 : (V c main_call0_v18 : S200000x1.Idx → EReal) = ci)
    (h2 : (V c main_arg1 : S200000x128.Idx → EReal) = X) (h3 : (V c main_call0_v39 : S128x128.Idx → EReal) = WlT)
    (h4 : (V c main_call0_v44 : S1x128.Idx → EReal) = bl2) (h5 : (V c main_call0_v41 : S128x128.Idx → EReal) = WrT)
    (h6 : (V c main_call0_v43 : S128x1.Idx → EReal) = WhT) (h7 : (V c main_call0_v45 : S1x1.Idx → EReal) = bh2)
    (hci : ∀ r : Fin 200000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1)))
    (t : Fin cfg0.N) :
    (dat0 V c).flushed 8 t
      = ((cfg0.win 8).blk t).view.read (Elt Ideal) (Cert.Sage.head S X cnt WlT WrT bl WhT bh) := by
  show (cfg0.win 8).cut (grid0.coords t) ((dat0 V c).after 8 t) = _
  rw [after0_8]
  unfold out0_8
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x1) hz, View.ld_unit_zero (S := S1x1) hz]
  rw [blk3_eq V c t, blk4_eq V c t, blk5_eq V c t, blk6_eq V c t, blk7_eq V c t, h3, h4, h5, h6, h7]
  obtain ⟨-, -, -, -, -, -, -, -, ⟨e0, e1⟩⟩ := idx_facts t
  have ht := t_lt t
  funext j
  obtain ⟨p, u, rfl⟩ : ∃ (p : Fin 5000) (u : Fin 1), j = ix2 p u := ⟨j 0, j 1, eq_ix2 j⟩
  have hp := p.isLt
  let r : Fin 200000 := ⟨t.val * 5000 + p.val, by omega⟩
  have he : ((cfg0.win 8).blk t).view.emb (ix2 p u) = (ix2 r u : S200000x1.Idx) := by
    funext a
    apply Fin.ext
    match a with
    | ⟨0, _⟩ => show win0_8.index t (0 : Fin 2) * 5000 + 1 * p.val = t.val * 5000 + p.val; rw [e0]; omega
    | ⟨1, _⟩ => show win0_8.index t (1 : Fin 2) * 1 + 1 * u.val = u.val; rw [e1]; omega
  show k0_pay1 (F := Ideal) (iblk0 V c 0 t) (iblk0 V c 1 t) (iblk0 V c 2 t) WlT WrT bl2 WhT bh2 (ix2 p u)
    = Cert.Sage.head S X cnt WlT WrT bl WhT bh (((cfg0.win 8).blk t).view.emb (ix2 p u))
  rw [he]
  exact point_row S X ci cnt WlT WrT bl2 bl WhT bh2 bh hci hbl hbh (iblk0 V c 0 t) (iblk0 V c 1 t) (iblk0 V c 2 t) p u r
    (fun k => (blk0_apply V c t p k r rfl).trans (congrFun h0 _))
    ((blk1_apply V c t p 0 r rfl).trans (congrFun h1 _))
    (fun k => (blk2_apply V c t p k r rfl).trans (congrFun h2 _))

/-- An index of the column is in point t's block iff its row is among the block's 5000 rows. -/
theorem mem_blk (t : Fin cfg0.N) (i : S200000x1.Idx) :
    i ∈ ((cfg0.win 8).blk t).view.set ↔ ∀ a : Fin 2, win0_8.index t a * S5000x1.size a ≤ (i a).val ∧ (i a).val < win0_8.index t a * S5000x1.size a + S5000x1.size a := by
  show i ∈ ((View.whole main_v0_0).slice (win0_8.rect t)).set ↔ _
  rw [View.set_slice_whole, Rect.mem_set_unit]
  exact Iff.rfl

/-- Every row of the column is in some point's block: row i is in block i / 5000. -/
theorem cover (i : S200000x1.Idx) :
    ∃ t : Fin cfg0.N, (cfg0.win 8).flush t = true ∧ i ∈ ((cfg0.win 8).blk t).view.set := by
  have hi0 : (i 0).val < 200000 := (i 0).isLt
  have hi1 : (i 1).val < 1 := (i 1).isLt
  have hN : grid0.N = 40 := N_0
  let t : Fin cfg0.N := ⟨(i 0).val / 5000, by show (i 0).val / 5000 < grid0.N; rw [hN]; omega⟩
  obtain ⟨-, -, -, -, -, -, -, -, ⟨e0, e1⟩⟩ := idx_facts t
  have e0' : win0_8.index t (0 : Fin 2) = (i 0).val / 5000 := e0
  refine ⟨t, flush0_8 t, ?_⟩
  rw [mem_blk]
  intro a
  match a with
  | ⟨0, _⟩ => show win0_8.index t (0 : Fin 2) * 5000 ≤ (i 0).val ∧ (i 0).val < win0_8.index t (0 : Fin 2) * 5000 + 5000; rw [e0']; omega
  | ⟨1, _⟩ => show win0_8.index t (1 : Fin 2) * 1 ≤ (i 1).val ∧ (i 1).val < win0_8.index t (1 : Fin 2) * 1 + 1; rw [e1]; omega

/-- The result column after the launch: the layer's output of every node. -/
theorem final (c : Dev nD)
    (h0 : (V c main_call0_v9 : S200000x128.Idx → EReal) = S) (h1 : (V c main_call0_v18 : S200000x1.Idx → EReal) = ci)
    (h2 : (V c main_arg1 : S200000x128.Idx → EReal) = X) (h3 : (V c main_call0_v39 : S128x128.Idx → EReal) = WlT)
    (h4 : (V c main_call0_v44 : S1x128.Idx → EReal) = bl2) (h5 : (V c main_call0_v41 : S128x128.Idx → EReal) = WrT)
    (h6 : (V c main_call0_v43 : S128x1.Idx → EReal) = WhT) (h7 : (V c main_call0_v45 : S1x1.Idx → EReal) = bh2)
    (hci : ∀ r : Fin 200000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1))) :
    (dat0 V c).arrAt 8 cfg0.N = Cert.Sage.head S X cnt WlT WrT bl WhT bh :=
  (dat0 V c).arrAt_eq_of_cover 8 (Cert.Sage.head S X cnt WlT WrT bl WhT bh)
    (fun t _ => flushed_eq V S X ci cnt WlT WrT bl2 bl WhT bh2 bh c h0 h1 h2 h3 h4 h5 h6 h7 hci hbl hbh t) cover

end Cert.KernelIdeal.Launch0

end
-- ==== Proof.KernelLaunch1.lean ====
/-
  The second launch's result array as one function of the arrays it finds.

  The launch walks 10 grid points. Point t stages rows 5000·t … 5000·t + 4999 of the summed neighbour features, of the
  column of reciprocal counts and of the destination nodes' own features, and the whole of each weight array; it runs
  the body and writes the 5000 results back to the same rows of the result column. Row p of point t's block is row
  5000·t + p of the arrays, the body's result there depends on that row alone, and the 10 row blocks tile the column,
  so the column ends holding the layer's output of every node. The reciprocal count times a sum is the quotient by the
  clamped count; the bias row and the head's bias are read at their one free coordinate.
-/
import proofs.«152094_j29154238005713_2_alg».proof.Proof.Gen.KernelIdeal.Frame
import proofs.«152094_j29154238005713_2_alg».proof.Proof.KernelBody
import Idealize.ShloMosaic.Lib.Pipeline.Value

set_option maxRecDepth 16384

noncomputable section

namespace Cert.KernelIdeal.Launch1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-blocked inputs and the output sit at block (t, 0), the five
    whole inputs at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = t.val ∧ win1_8.index t (1 : Fin 2) = 0) :=
  (by decide +kernel : ∀ t : Fin grid1.N, _)

theorem t_lt (t : Fin cfg1.N) : t.val < 10 := by
  have h : t.val < grid1.N := t.isLt
  rw [N_1] at h
  exact h

/-! ## Each input block as rows of its array -/

/-- The block of summed neighbour features at point t is rows 5000·t … of the array. -/
theorem blk0_apply (c : Dev nD) (t : Fin cfg1.N) (p : Fin 5000) (k : Fin 128) (r : Fin 50000)
    (hr : r.val = t.val * 5000 + p.val) :
    (iblk1 V c 0 t : FVec Ideal S5000x128 .f32) (ix2 p k) = (V c main_call0_v28 : S50000x128.Idx → EReal) (ix2 r k) := by
  obtain ⟨⟨e0, e1⟩, -⟩ := idx_facts t
  unfold iblk1
  rw [View.read_apply]
  show V c main_call0_v28 _ = V c main_call0_v28 _
  refine congrArg _ ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The block of reciprocal counts at point t is rows 5000·t … of the column. -/
theorem blk1_apply (c : Dev nD) (t : Fin cfg1.N) (p : Fin 5000) (u : Fin 1) (r : Fin 50000)
    (hr : r.val = t.val * 5000 + p.val) :
    (iblk1 V c 1 t : FVec Ideal S5000x1 .f32) (ix2 p u) = (V c main_call0_v37 : S50000x1.Idx → EReal) (ix2 r u) := by
  obtain ⟨-, ⟨e0, e1⟩, -⟩ := idx_facts t
  unfold iblk1
  rw [View.read_apply]
  show V c main_call0_v37 _ = V c main_call0_v37 _
  refine congrArg _ ?_
  funext a
  apply Fin.ext
  match a with
  | ⟨0, _⟩ => show win1_1.index t (0 : Fin 2) * 5000 + 1 * p.val = r.val; rw [e0, hr]; omega
  | ⟨1, _⟩ => show win1_1.index t (1 : Fin 2) * 1 + 1 * u.val = u.val; rw [e1]; omega

/-- The block of the nodes' own features at point t is rows 5000·t … of the array. -/
theorem blk2_apply (c : Dev nD) (t : Fin cfg1.N) (p : Fin 5000) (k : Fin 128) (r : Fin 50000)
    (hr : r.val = t.val * 5000 + p.val) :
    (iblk1 V c 2 t : FVec Ideal S5000x128 .f32) (ix2 p k) = (V c main_arg0 : S50000x128.Idx → EReal) (ix2 r k) := by
  obtain ⟨-, -, ⟨e0, e1⟩, -⟩ := idx_facts t
  unfold iblk1
  rw [View.read_apply]
  show V c main_arg0 _ = V c main_arg0 _
  refine congrArg _ ?_
  funext a
  apply Fin.ext
  match a with
  | ⟨0, _⟩ => show win1_2.index t (0 : Fin 2) * 5000 + 1 * p.val = r.val; rw [e0, hr]; omega
  | ⟨1, _⟩ => show win1_2.index t (1 : Fin 2) * 128 + 1 * k.val = k.val; rw [e1]; omega

/-- A whole-array window's block is the array, at every point: the neighbour weights. -/
theorem blk3_eq (c : Dev nD) (t : Fin cfg1.N) :
    (iblk1 V c 3 t : FVec Ideal S128x128 .bf16) = (V c main_call0_v48 : S128x128.Idx → EReal) := by
  obtain ⟨-, -, -, ⟨e0, e1⟩, -⟩ := idx_facts t
  funext y
  unfold iblk1
  rw [View.read_apply]
  show V c main_call0_v48 _ = V c main_call0_v48 y
  refine congrArg _ ?_
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- … the bias row. -/
theorem blk4_eq (c : Dev nD) (t : Fin cfg1.N) :
    (iblk1 V c 4 t : FVec Ideal S1x128 .f32) = (V c main_call0_v53 : S1x128.Idx → EReal) := by
  obtain ⟨-, -, -, -, ⟨e0, e1⟩, -⟩ := idx_facts t
  funext y
  unfold iblk1
  rw [View.read_apply]
  show V c main_call0_v53 _ = V c main_call0_v53 y
  refine congrArg _ ?_
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- … the root weights. -/
theorem blk5_eq (c : Dev nD) (t : Fin cfg1.N) :
    (iblk1 V c 5 t : FVec Ideal S128x128 .bf16) = (V c main_call0_v50 : S128x128.Idx → EReal) := by
  obtain ⟨-, -, -, -, -, ⟨e0, e1⟩, -⟩ := idx_facts t
  funext y
  unfold iblk1
  rw [View.read_apply]
  show V c main_call0_v50 _ = V c main_call0_v50 y
  refine congrArg _ ?_
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- … the head's column. -/
theorem blk6_eq (c : Dev nD) (t : Fin cfg1.N) :
    (iblk1 V c 6 t : FVec Ideal S128x1 .bf16) = (V c main_call0_v52 : S128x1.Idx → EReal) := by
  obtain ⟨-, -, -, -, -, -, ⟨e0, e1⟩, -⟩ := idx_facts t
  funext y
  unfold iblk1
  rw [View.read_apply]
  show V c main_call0_v52 _ = V c main_call0_v52 y
  refine congrArg _ ?_
  funext a
  apply Fin.ext
  match a with
  | ⟨0, _⟩ => show win1_6.index t (0 : Fin 2) * 128 + 1 * (y 0).val = (y 0).val; rw [e0]; omega
  | ⟨1, _⟩ => show win1_6.index t (1 : Fin 2) * 1 + 1 * (y 1).val = (y 1).val; rw [e1]; omega

/-- … the head's bias. -/
theorem blk7_eq (c : Dev nD) (t : Fin cfg1.N) :
    (iblk1 V c 7 t : FVec Ideal S1x1 .f32) = (V c main_call0_v54 : S1x1.Idx → EReal) := by
  obtain ⟨-, -, -, -, -, -, -, ⟨e0, e1⟩, -⟩ := idx_facts t
  funext y
  unfold iblk1
  rw [View.read_apply]
  show V c main_call0_v54 _ = V c main_call0_v54 y
  refine congrArg _ ?_
  funext a
  apply Fin.ext
  match a with
  | ⟨0, _⟩ => show win1_7.index t (0 : Fin 2) * 1 + 1 * (y 0).val = (y 0).val; rw [e0]; omega
  | ⟨1, _⟩ => show win1_7.index t (1 : Fin 2) * 1 + 1 * (y 1).val = (y 1).val; rw [e1]; omega

/-! ## One row of one point, over variables -/

/-- If a point's blocks are rows off … off + 4999 of arrays S, ci, X, with ci the reciprocal of the clamped count, and
    its weight blocks are the weight arrays, the body's result in row p is the layer's output of node off + p. -/
theorem point_row (S X : (⟨2, ![50000, 128]⟩ : Shape).Idx → EReal) (ci : (⟨2, ![50000, 1]⟩ : Shape).Idx → EReal)
    (cnt : (⟨1, ![50000]⟩ : Shape).Idx → EReal) (WlT WrT : (⟨2, ![128, 128]⟩ : Shape).Idx → EReal)
    (bl2 : (⟨2, ![1, 128]⟩ : Shape).Idx → EReal) (bl : (⟨1, ![128]⟩ : Shape).Idx → EReal)
    (WhT : (⟨2, ![128, 1]⟩ : Shape).Idx → EReal) (bh2 : (⟨2, ![1, 1]⟩ : Shape).Idx → EReal)
    (bh : (⟨1, ![1]⟩ : Shape).Idx → EReal)
    (hci : ∀ r : Fin 50000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1)))
    (b0 : FVec Ideal S5000x128 .f32) (b1 : FVec Ideal S5000x1 .f32) (b2 : FVec Ideal S5000x128 .f32)
    (p : Fin 5000) (u : Fin 1) (r : Fin 50000)
    (e0 : ∀ k : Fin 128, b0 (ix2 p k) = S (ix2 r k)) (e1 : b1 (ix2 p (0 : Fin 1)) = ci (ix2 r (0 : Fin 1)))
    (e2 : ∀ k : Fin 128, b2 (ix2 p k) = X (ix2 r k)) :
    k1_pay1 (F := Ideal) b0 b1 b2 WlT WrT bl2 WhT bh2 (ix2 p u)
      = Cert.Sage.head S X cnt WlT WrT bl WhT bh (ix2 r u) := by
  rw [Cert.KernelIdeal.Body.pay1_apply, Cert.Sage.head_apply]
  have hm : (fun k : Fin 128 => b0 (ix2 p k) * b1 (ix2 p (0 : Fin 1)))
      = fun k : Fin 128 => Ideal.div (S (ix2 r k)) (max (cnt (ix1 r)) Cert.Sage.oneW) :=
    funext fun k => by rw [e0 k, e1, hci r, Cert.Sage.mul_recip_max]
  have hx : (fun k : Fin 128 => b2 (ix2 p k)) = fun k : Fin 128 => X (ix2 r k) := funext e2
  have hb : (fun q : Fin 128 => bl2 (ix2 (0 : Fin 1) q)) = fun q : Fin 128 => bl (ix1 q) := funext hbl
  rw [hm, hx, hb, hbh]

/-! ## What a point writes back, the cover, the array -/

variable (S X : (⟨2, ![50000, 128]⟩ : Shape).Idx → EReal) (ci : (⟨2, ![50000, 1]⟩ : Shape).Idx → EReal)
    (cnt : (⟨1, ![50000]⟩ : Shape).Idx → EReal) (WlT WrT : (⟨2, ![128, 128]⟩ : Shape).Idx → EReal)
    (bl2 : (⟨2, ![1, 128]⟩ : Shape).Idx → EReal) (bl : (⟨1, ![128]⟩ : Shape).Idx → EReal)
    (WhT : (⟨2, ![128, 1]⟩ : Shape).Idx → EReal) (bh2 : (⟨2, ![1, 1]⟩ : Shape).Idx → EReal)
    (bh : (⟨1, ![1]⟩ : Shape).Idx → EReal)

/-- What point t writes back is block t of the layer's output column. -/
theorem flushed_eq (c : Dev nD)
    (h0 : (V c main_call0_v28 : S50000x128.Idx → EReal) = S) (h1 : (V c main_call0_v37 : S50000x1.Idx → EReal) = ci)
    (h2 : (V c main_arg0 : S50000x128.Idx → EReal) = X) (h3 : (V c main_call0_v48 : S128x128.Idx → EReal) = WlT)
    (h4 : (V c main_call0_v53 : S1x128.Idx → EReal) = bl2) (h5 : (V c main_call0_v50 : S128x128.Idx → EReal) = WrT)
    (h6 : (V c main_call0_v52 : S128x1.Idx → EReal) = WhT) (h7 : (V c main_call0_v54 : S1x1.Idx → EReal) = bh2)
    (hci : ∀ r : Fin 50000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1)))
    (t : Fin cfg1.N) :
    (dat1 V c).flushed 8 t
      = ((cfg1.win 8).blk t).view.read (Elt Ideal) (Cert.Sage.head S X cnt WlT WrT bl WhT bh) := by
  show (cfg1.win 8).cut (grid1.coords t) ((dat1 V c).after 8 t) = _
  rw [after1_8]
  unfold out1_8
  rw [View.canon_unit_zero hz]
  simp only [View.ld_unit_zero (S := S5000x128) hz, View.ld_unit_zero (S := S5000x1) hz, View.ld_unit_zero (S := S128x128) hz,
    View.ld_unit_zero (S := S1x128) hz, View.ld_unit_zero (S := S128x1) hz, View.ld_unit_zero (S := S1x1) hz]
  rw [blk3_eq V c t, blk4_eq V c t, blk5_eq V c t, blk6_eq V c t, blk7_eq V c t, h3, h4, h5, h6, h7]
  obtain ⟨-, -, -, -, -, -, -, -, ⟨e0, e1⟩⟩ := idx_facts t
  have ht := t_lt t
  funext j
  obtain ⟨p, u, rfl⟩ : ∃ (p : Fin 5000) (u : Fin 1), j = ix2 p u := ⟨j 0, j 1, eq_ix2 j⟩
  have hp := p.isLt
  let r : Fin 50000 := ⟨t.val * 5000 + p.val, by omega⟩
  have he : ((cfg1.win 8).blk t).view.emb (ix2 p u) = (ix2 r u : S50000x1.Idx) := by
    funext a
    apply Fin.ext
    match a with
    | ⟨0, _⟩ => show win1_8.index t (0 : Fin 2) * 5000 + 1 * p.val = t.val * 5000 + p.val; rw [e0]; omega
    | ⟨1, _⟩ => show win1_8.index t (1 : Fin 2) * 1 + 1 * u.val = u.val; rw [e1]; omega
  show k1_pay1 (F := Ideal) (iblk1 V c 0 t) (iblk1 V c 1 t) (iblk1 V c 2 t) WlT WrT bl2 WhT bh2 (ix2 p u)
    = Cert.Sage.head S X cnt WlT WrT bl WhT bh (((cfg1.win 8).blk t).view.emb (ix2 p u))
  rw [he]
  exact point_row S X ci cnt WlT WrT bl2 bl WhT bh2 bh hci hbl hbh (iblk1 V c 0 t) (iblk1 V c 1 t) (iblk1 V c 2 t) p u r
    (fun k => (blk0_apply V c t p k r rfl).trans (congrFun h0 _))
    ((blk1_apply V c t p 0 r rfl).trans (congrFun h1 _))
    (fun k => (blk2_apply V c t p k r rfl).trans (congrFun h2 _))

/-- An index of the column is in point t's block iff its row is among the block's 5000 rows. -/
theorem mem_blk (t : Fin cfg1.N) (i : S50000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v0_1).slice (win1_8.rect t)).set ↔ _
  rw [View.set_slice_whole, Rect.mem_set_unit]
  exact Iff.rfl

/-- Every row of the column is in some point's block: row i is in block i / 5000. -/
theorem cover (i : S50000x1.Idx) :
    ∃ t : Fin cfg1.N, (cfg1.win 8).flush t = true ∧ i ∈ ((cfg1.win 8).blk t).view.set := by
  have hi0 : (i 0).val < 50000 := (i 0).isLt
  have hi1 : (i 1).val < 1 := (i 1).isLt
  have hN : grid1.N = 10 := N_1
  let t : Fin cfg1.N := ⟨(i 0).val / 5000, by show (i 0).val / 5000 < grid1.N; rw [hN]; omega⟩
  obtain ⟨-, -, -, -, -, -, -, -, ⟨e0, e1⟩⟩ := idx_facts t
  have e0' : win1_8.index t (0 : Fin 2) = (i 0).val / 5000 := e0
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; rw [e0']; omega
  | ⟨1, _⟩ => show win1_8.index t (1 : Fin 2) * 1 ≤ (i 1).val ∧ (i 1).val < win1_8.index t (1 : Fin 2) * 1 + 1; rw [e1]; omega

/-- The result column after the launch: the layer's output of every node. -/
theorem final (c : Dev nD)
    (h0 : (V c main_call0_v28 : S50000x128.Idx → EReal) = S) (h1 : (V c main_call0_v37 : S50000x1.Idx → EReal) = ci)
    (h2 : (V c main_arg0 : S50000x128.Idx → EReal) = X) (h3 : (V c main_call0_v48 : S128x128.Idx → EReal) = WlT)
    (h4 : (V c main_call0_v53 : S1x128.Idx → EReal) = bl2) (h5 : (V c main_call0_v50 : S128x128.Idx → EReal) = WrT)
    (h6 : (V c main_call0_v52 : S128x1.Idx → EReal) = WhT) (h7 : (V c main_call0_v54 : S1x1.Idx → EReal) = bh2)
    (hci : ∀ r : Fin 50000, ci (ix2 r (0 : Fin 1)) = Ideal.div Cert.Sage.oneW (max (cnt (ix1 r)) Cert.Sage.oneW))
    (hbl : ∀ q : Fin 128, bl2 (ix2 (0 : Fin 1) q) = bl (ix1 q))
    (hbh : bh2 (ix2 (0 : Fin 1) (0 : Fin 1)) = bh (ix1 (0 : Fin 1))) :
    (dat1 V c).arrAt 8 cfg1.N = Cert.Sage.head S X cnt WlT WrT bl WhT bh :=
  (dat1 V c).arrAt_eq_of_cover 8 (Cert.Sage.head S X cnt WlT WrT bl WhT bh)
    (fun t _ => flushed_eq V S X ci cnt WlT WrT bl2 bl WhT bh2 bh c h0 h1 h2 h3 h4 h5 h6 h7 hci hbl hbh t) cover

end Cert.KernelIdeal.Launch1

end
-- ==== Proof.KernelHostTerms.lean ====
/-
  The host's terms for the arrays the two launches find, and how the body reads their columns and rows.

  Before the first launch the host builds, for each relation, the summed neighbour features (a gather of the source
  rows through the normalized source indices, scattered and added at the destination indices) and the column of
  reciprocals 1 / max(count, 1) (the counts a scatter-add of ones), and re-lays the first relation's weights
  (transposes; the narrowing to the matrix unit's format is the identity at the exact values; the two biases get a
  leading unit axis). Before the second launch it re-lays the second relation's weights the same way. No operation
  writes an argument, and the first launch writes only its result column.
-/
import proofs.«152094_j29154238005713_2_alg».proof.Proof.Gen.KernelIdeal.Frame
import proofs.«152094_j29154238005713_2_alg».proof.Proof.SageSpec
import proofs.«152094_j29154238005713_2_alg».proof.Proof.LibKeepdims
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-! ## The shared terms -/

/-- Summed neighbour features of the first relation's destination nodes. -/
abbrev sumsWells (x : FVec Ideal S50000x128 .f32) (src dst : IVec S1000000 32) : FVec Ideal S200000x128 .f32 :=
  Host.scatterAdd scatter_S200000x128_S1000000x1_S1000000x128_1_0_0_1
    (broadcastInDim S200000x128 ![] bcast_S_S200000x128 (constant (F := Ideal) S_ .f32 0x00000000#32))
    (broadcastInDim S1000000x1 ![0] bcast_S1000000_S1000000x1_0 dst)
    (Host.gather gather_S50000x128_S1000000x1_S1000000x128_1_0_n_n_0_1_1128 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 50000#32))) src)))

/-- Neighbour counts of the first relation's destination nodes. -/
abbrev cntWells (dst : IVec S1000000 32) : FVec Ideal S200000 .f32 :=
  Host.scatterAdd scatter_S200000_S1000000x1_S1000000_n_0_0_1
    (broadcastInDim S200000 ![] bcast_S_S200000 (constant (F := Ideal) S_ .f32 0x00000000#32))
    (broadcastInDim S1000000x1 ![0] bcast_S1000000_S1000000x1_0 dst)
    (broadcastInDim S1000000 ![] bcast_S_S1000000 (constant (F := Ideal) S_ .f32 0x3F800000#32))

/-- Summed neighbour features of the second relation's destination nodes. -/
abbrev sumsSites (x : FVec Ideal S200000x128 .f32) (src dst : IVec S1000000 32) : FVec Ideal S50000x128 .f32 :=
  Host.scatterAdd scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 dst)
    (Host.gather gather_S200000x128_S1000000x1_S1000000x128_1_0_n_n_0_1_1128 x
      (broadcastInDim S1000000x1 ![0] bcast_S1000000_S1000000x1_0
        (select (cmpi .slt src (broadcastInDim S1000000 ![] bcast_S_S1000000 (constantI S_ 32 0#32)))
          (addi src (broadcastInDim S1000000 ![] bcast_S_S1000000 (constantI S_ 32 200000#32))) src)))

/-- Neighbour counts of the second relation's destination nodes. -/
abbrev cntSites (dst : IVec S1000000 32) : FVec Ideal S50000 .f32 :=
  Host.scatterAdd scatter_S50000_S1000000x1_S1000000_n_0_0_1
    (broadcastInDim S50000 ![] bcast_S_S50000 (constant (F := Ideal) S_ .f32 0x00000000#32))
    (broadcastInDim S1000000x1 ![0] bcast_S1000000_S1000000x1_0 dst)
    (broadcastInDim S1000000 ![] bcast_S_S1000000 (constant (F := Ideal) S_ .f32 0x3F800000#32))

/-- The column of reciprocals of the clamped counts, 200000 nodes. -/
abbrev recipWells (cnt : FVec Ideal S200000 .f32) : FVec Ideal S200000x1 .f32 :=
  shapeCast S200000x1
    (Host.divf (broadcastInDim S200000 ![] bcast_S_S200000 (constant (F := Ideal) S_ .f32 0x3F800000#32))
      (maximumf cnt (broadcastInDim S200000 ![] bcast_S_S200000 (constant (F := Ideal) S_ .f32 0x3F800000#32))))
    shapeCasts_S200000_S200000x1

/-- The column of reciprocals of the clamped counts, 50000 nodes. -/
abbrev recipSites (cnt : FVec Ideal S50000 .f32) : FVec Ideal S50000x1 .f32 :=
  shapeCast S50000x1
    (Host.divf (broadcastInDim S50000 ![] bcast_S_S50000 (constant (F := Ideal) S_ .f32 0x3F800000#32))
      (maximumf cnt (broadcastInDim S50000 ![] bcast_S_S50000 (constant (F := Ideal) S_ .f32 0x3F800000#32))))
    shapeCasts_S50000_S50000x1

/-! ## The columns and rows the body reads at their one free coordinate -/

/-- A scalar broadcast to a vector reads the scalar. -/
theorem splat_apply {n : Nat} (h : S_.BroadcastsInDim (⟨1, ![n]⟩ : Shape) ![]) (w : BitVec 32) (r : Fin n) :
    broadcastInDim (⟨1, ![n]⟩ : Shape) ![] h (constant (F := Ideal) S_ .f32 w) (ix1 r) = Ideal.ofBits .f32 w :=
  broadcastInDim_apply _ h _ (ix1 r) ix0 fun ax => ax.elim0

/-- The reciprocal column at node r: 1 / max(count r, 1). -/
theorem recipWells_apply (cnt : FVec Ideal S200000 .f32) (r : Fin 200000) :
    recipWells cnt (ix2 r (0 : Fin 1)) = Ideal.div Cert.Sage.oneW (max (cnt (ix1 r)) Cert.Sage.oneW) := by
  refine (Cert.Lib.Keepdims.col_apply _ shapeCasts_S200000_S200000x1 r 0).trans ?_
  show Ideal.div (broadcastInDim S200000 ![] bcast_S_S200000 (constant (F := Ideal) S_ .f32 0x3F800000#32) (ix1 r))
    (max (cnt (ix1 r)) (broadcastInDim S200000 ![] bcast_S_S200000 (constant (F := Ideal) S_ .f32 0x3F800000#32) (ix1 r))) = _
  rw [splat_apply bcast_S_S200000 0x3F800000#32 r]

theorem recipSites_apply (cnt : FVec Ideal S50000 .f32) (r : Fin 50000) :
    recipSites cnt (ix2 r (0 : Fin 1)) = Ideal.div Cert.Sage.oneW (max (cnt (ix1 r)) Cert.Sage.oneW) := by
  refine (Cert.Lib.Keepdims.col_apply _ shapeCasts_S50000_S50000x1 r 0).trans ?_
  show Ideal.div (broadcastInDim S50000 ![] bcast_S_S50000 (constant (F := Ideal) S_ .f32 0x3F800000#32) (ix1 r))
    (max (cnt (ix1 r)) (broadcastInDim S50000 ![] bcast_S_S50000 (constant (F := Ideal) S_ .f32 0x3F800000#32) (ix1 r))) = _
  rw [splat_apply bcast_S_S50000 0x3F800000#32 r]

/-- A bias vector given a leading unit axis reads, at (0, q), the vector at q. -/
theorem biasRow_apply (b : FVec Ideal S128 .f32) (q : Fin 128) :
    shapeCast S1x128 b shapeCasts_S128_S1x128 (ix2 (0 : Fin 1) q) = b (ix1 q) :=
  shapeCast_apply b shapeCasts_S128_S1x128 _ _ (by
    rw [Shape.rowMajor_val_two, Shape.rowMajor_val_one]
    show q.val = 0 * 128 + q.val
    omega)

/-- The head's bias given two unit axes reads the bias. -/
theorem biasOne_apply (b : FVec Ideal S1 .f32) :
    shapeCast S1x1 b shapeCasts_S1_S1x1 (ix2 (0 : Fin 1) (0 : Fin 1)) = b (ix1 (0 : Fin 1)) :=
  shapeCast_apply b shapeCasts_S1_S1x1 _ _ (by
    rw [Shape.rowMajor_val_two, Shape.rowMajor_val_one]
    show (0 : Nat) = 0 * 1 + 0
    omega)

end Cert.KernelIdeal.Host

end
-- ==== Proof.KernelHostA.lean ====
/-
  After the first stretch of host operations: the two relations' summed neighbour features, the first relation's
  re-laid weights and biases, and the arguments, which no operation of the stretch writes.
-/
import proofs.«152094_j29154238005713_2_alg».proof.Proof.KernelHostTerms

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

-- the gather and the scatter-add are carried as opaque terms: nothing here looks inside them
attribute [local irreducible] Host.scatterAdd Host.gather

variable (W : Valuation τ sig (Elt Ideal))

theorem v9_eq : after (hostOps0 (F := Ideal)) W (Proc.devRef .tc main_call0_v9)
    = sumsWells (W (Proc.devRef .tc main_arg0)) (W (Proc.devRef .tc main_arg12)) (W (Proc.devRef .tc main_arg13)) := by
  after_results_simp; rfl

theorem v28_eq : after (hostOps0 (F := Ideal)) W (Proc.devRef .tc main_call0_v28)
    = sumsSites (W (Proc.devRef .tc main_arg1)) (W (Proc.devRef .tc main_arg14)) (W (Proc.devRef .tc main_arg15)) := by
  after_results_simp; rfl

theorem v39_eq : after (hostOps0 (F := Ideal)) W (Proc.devRef .tc main_call0_v39)
    = transpose S128x128 [1, 0] (W (Proc.devRef .tc main_arg2) : FVec Ideal S128x128 .f32) transposes_S128x128_S128x128_1_0 := by
  after_results_simp; rfl

theorem v41_eq : after (hostOps0 (F := Ideal)) W (Proc.devRef .tc main_call0_v41)
    = transpose S128x128 [1, 0] (W (Proc.devRef .tc main_arg4) : FVec Ideal S128x128 .f32) transposes_S128x128_S128x128_1_0 := by
  after_results_simp; rfl

theorem v43_eq : after (hostOps0 (F := Ideal)) W (Proc.devRef .tc main_call0_v43)
    = transpose S128x1 [1, 0] (W (Proc.devRef .tc main_arg8) : FVec Ideal S1x128 .f32) transposes_S1x128_S128x1_1_0 := by
  after_results_simp; rfl

theorem v44_eq : after (hostOps0 (F := Ideal)) W (Proc.devRef .tc main_call0_v44)
    = shapeCast S1x128 (W (Proc.devRef .tc main_arg3) : FVec Ideal S128 .f32) shapeCasts_S128_S1x128 := by
  after_results_simp; rfl

theorem v45_eq : after (hostOps0 (F := Ideal)) W (Proc.devRef .tc main_call0_v45)
    = shapeCast S1x1 (W (Proc.devRef .tc main_arg9) : FVec Ideal S1 .f32) shapeCasts_S1_S1x1 := by
  after_results_simp; rfl

/-- The first stretch writes no argument. -/
theorem arg_kept0 (b : Ref sig .tc)
    (hb : b = main_arg0 ∨ b = main_arg1 ∨ b = main_arg5 ∨ b = main_arg6 ∨ b = main_arg7 ∨ b = main_arg10 ∨ b = main_arg11) :
    after (hostOps0 (F := Ideal)) W (Proc.devRef .tc b) = W (Proc.devRef .tc b) := by
  rcases hb with rfl | rfl | rfl | rfl | rfl | rfl | rfl <;> after_results_simp

end Cert.KernelIdeal.Host

end
-- ==== Proof.KernelHostB.lean ====
/-
  After the second stretch of host operations: the second relation's re-laid weights and biases; the stretch leaves
  the second relation's sums and reciprocal counts, the destination nodes' features and the first result column as
  they were.
-/
import proofs.«152094_j29154238005713_2_alg».proof.Proof.KernelHostTerms

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

-- the gather and the scatter-add are carried as opaque terms: nothing here looks inside them
attribute [local irreducible] Host.scatterAdd Host.gather

variable (W : Valuation τ sig (Elt Ideal))

theorem v48_eq : after (hostOps1 (F := Ideal)) W (Proc.devRef .tc main_call0_v48)
    = transpose S128x128 [1, 0] (W (Proc.devRef .tc main_arg5) : FVec Ideal S128x128 .f32) transposes_S128x128_S128x128_1_0 := by
  after_results_simp; rfl

theorem v50_eq : after (hostOps1 (F := Ideal)) W (Proc.devRef .tc main_call0_v50)
    = transpose S128x128 [1, 0] (W (Proc.devRef .tc main_arg7) : FVec Ideal S128x128 .f32) transposes_S128x128_S128x128_1_0 := by
  after_results_simp; rfl

theorem v52_eq : after (hostOps1 (F := Ideal)) W (Proc.devRef .tc main_call0_v52)
    = transpose S128x1 [1, 0] (W (Proc.devRef .tc main_arg10) : FVec Ideal S1x128 .f32) transposes_S1x128_S128x1_1_0 := by
  after_results_simp; rfl

theorem v53_eq : after (hostOps1 (F := Ideal)) W (Proc.devRef .tc main_call0_v53)
    = shapeCast S1x128 (W (Proc.devRef .tc main_arg6) : FVec Ideal S128 .f32) shapeCasts_S128_S1x128 := by
  after_results_simp; rfl

theorem v54_eq : after (hostOps1 (F := Ideal)) W (Proc.devRef .tc main_call0_v54)
    = shapeCast S1x1 (W (Proc.devRef .tc main_arg11) : FVec Ideal S1 .f32) shapeCasts_S1_S1x1 := by
  after_results_simp; rfl

/-- The second stretch leaves the second relation's sums, reciprocal counts, the destination nodes' features and
    the first launch's result column as they were. -/
theorem kept1 (b : Ref sig .tc)
    (hb : b = main_call0_v28 ∨ b = main_call0_v37 ∨ b = main_arg0 ∨ b = main_v0_0) :
    after (hostOps1 (F := Ideal)) W (Proc.devRef .tc b) = W (Proc.devRef .tc b) := by
  rcases hb with rfl | rfl | rfl | rfl <;> after_results_simp

end Cert.KernelIdeal.Host

end
-- ==== Proof.KernelHostC.lean ====
/-
  After the first stretch of host operations: each relation's column of reciprocals of the clamped neighbour counts.

  The stretch's operations are stated over references that carry the type of the value they hold; each is the plain
  operation at the same buffers with the same function, because at these references the carried type is the buffer's
  own and the transports between the two are the identity. Over the float values left abstract this is a comparison of
  small terms, one operation at a time; the fold of the plain list then contains no transport, and the reciprocal
  column is read off it.
-/
import proofs.«152094_j29154238005713_2_alg».proof.Proof.KernelHostTerms

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

-- the gather and the scatter-add are carried as opaque terms: nothing here looks inside them
attribute [local irreducible] Host.scatterAdd Host.gather

section Plain

variable {F : FTy → Type} [FloatOps F]

/-- The first stretch's sixty operations as plain operations at the buffers, each function at the buffers' own types. -/
abbrev plainOps0 : List (HloOp τ sig (Elt F)) :=
  [ nullary main_call0_c (constantI S_ 32 0#32 : (⟨S_, .i32⟩ : BufTy).Contents (Elt F)),
    unary main_call0_c main_call0_v0 ((broadcastInDim S1000000 ![] bcast_S_S1000000) : (⟨S_, .i32⟩ : BufTy).Contents (Elt F) → (⟨S1000000, .i32⟩ : BufTy).Contents (Elt F)),
    binary main_arg12 main_call0_v0 main_call0_v1 ((cmpi .slt) : (⟨S1000000, .i32⟩ : BufTy).Contents (Elt F) → (⟨S1000000, .i32⟩ : BufTy).Contents (Elt F) → (⟨S1000000, .i1⟩ : BufTy).Contents (Elt F)),
    nullary main_call0_c_0 (constantI S_ 32 50000#32 : (⟨S_, .i32⟩ : BufTy).Contents (Elt F)),
    unary main_call0_c_0 main_call0_v2 ((broadcastInDim S1000000 ![] bcast_S_S1000000) : (⟨S_, .i32⟩ : BufTy).Contents (Elt F) → (⟨S1000000, .i32⟩ : BufTy).Contents (Elt F)),
    binary main_arg12 main_call0_v2 main_call0_v3 (addi : (⟨S1000000, .i32⟩ : BufTy).Contents (Elt F) → (⟨S1000000, .i32⟩ : BufTy).Contents (Elt F) → (⟨S1000000, .i32⟩ : BufTy).Contents (Elt F)),
    ternary main_call0_v1 main_call0_v3 main_arg12 main_call0_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_call0_v4 main_call0_v5 ((broadcastInDim S1000000x1 ![0] bcast_S1000000_S1000000x1_0) : (⟨S1000000, .i32⟩ : BufTy).Contents (Elt F) → (⟨S1000000x1, .i32⟩ : BufTy).Contents (Elt F)),
    binary main_arg0 main_call0_v5 main_call0_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_call0_cst (constant S_ .f32 0x00000000#32 : (⟨S_, .f32⟩ : BufTy).Contents (Elt F)),
    unary main_call0_cst main_call0_v7 ((broadcastInDim S200000x128 ![] bcast_S_S200000x128) : (⟨S_, .f32⟩ : BufTy).Contents (Elt F) → (⟨S200000x128, .f32⟩ : BufTy).Contents (Elt F)),
    unary main_arg13 main_call0_v8 ((broadcastInDim S1000000x1 ![0] bcast_S1000000_S1000000x1_0) : (⟨S1000000, .i32⟩ : BufTy).Contents (Elt F) → (⟨S1000000x1, .i32⟩ : BufTy).Contents (Elt F)),
    ternary main_call0_v7 main_call0_v8 main_call0_v6 main_call0_v9 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    nullary main_call0_cst_1 (constant S_ .f32 0x3F800000#32 : (⟨S_, .f32⟩ : BufTy).Contents (Elt F)),
    unary main_call0_cst_1 main_call0_v10 ((broadcastInDim S1000000 ![] bcast_S_S1000000) : (⟨S_, .f32⟩ : BufTy).Contents (Elt F) → (⟨S1000000, .f32⟩ : BufTy).Contents (Elt F)),
    nullary main_call0_cst_2 (constant S_ .f32 0x00000000#32 : (⟨S_, .f32⟩ : BufTy).Contents (Elt F)),
    unary main_call0_cst_2 main_call0_v11 ((broadcastInDim S200000 ![] bcast_S_S200000) : (⟨S_, .f32⟩ : BufTy).Contents (Elt F) → (⟨S200000, .f32⟩ : BufTy).Contents (Elt F)),
    unary main_arg13 main_call0_v12 ((broadcastInDim S1000000x1 ![0] bcast_S1000000_S1000000x1_0) : (⟨S1000000, .i32⟩ : BufTy).Contents (Elt F) → (⟨S1000000x1, .i32⟩ : BufTy).Contents (Elt F)),
    ternary main_call0_v11 main_call0_v12 main_call0_v10 main_call0_v13 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    nullary main_call0_cst_3 (constant S_ .f32 0x3F800000#32 : (⟨S_, .f32⟩ : BufTy).Contents (Elt F)),
    unary main_call0_cst_3 main_call0_v14 ((broadcastInDim S200000 ![] bcast_S_S200000) : (⟨S_, .f32⟩ : BufTy).Contents (Elt F) → (⟨S200000, .f32⟩ : BufTy).Contents (Elt F)),
    binary main_call0_v13 main_call0_v14 main_call0_v15 (maximumf : (⟨S200000, .f32⟩ : BufTy).Contents (Elt F) → (⟨S200000, .f32⟩ : BufTy).Contents (Elt F) → (⟨S200000, .f32⟩ : BufTy).Contents (Elt F)),
    nullary main_call0_cst_4 (constant S_ .f32 0x3F800000#32 : (⟨S_, .f32⟩ : BufTy).Contents (Elt F)),
    unary main_call0_cst_4 main_call0_v16 ((broadcastInDim S200000 ![] bcast_S_S200000) : (⟨S_, .f32⟩ : BufTy).Contents (Elt F) → (⟨S200000, .f32⟩ : BufTy).Contents (Elt F)),
    binary main_call0_v16 main_call0_v15 main_call0_v17 (Host.divf : (⟨S200000, .f32⟩ : BufTy).Contents (Elt F) → (⟨S200000, .f32⟩ : BufTy).Contents (Elt F) → (⟨S200000, .f32⟩ : BufTy).Contents (Elt F)),
    reshape main_call0_v17 main_call0_v18 rfl shapeCasts_S200000_S200000x1,
    nullary main_call0_c_5 (constantI S_ 32 0#32 : (⟨S_, .i32⟩ : BufTy).Contents (Elt F)),
    unary main_call0_c_5 main_call0_v19 ((broadcastInDim S1000000 ![] bcast_S_S1000000) : (⟨S_, .i32⟩ : BufTy).Contents (Elt F) → (⟨S1000000, .i32⟩ : BufTy).Contents (Elt F)),
    binary main_arg14 main_call0_v19 main_call0_v20 ((cmpi .slt) : (⟨S1000000, .i32⟩ : BufTy).Contents (Elt F) → (⟨S1000000, .i32⟩ : BufTy).Contents (Elt F) → (⟨S1000000, .i1⟩ : BufTy).Contents (Elt F)),
    nullary main_call0_c_6 (constantI S_ 32 200000#32 : (⟨S_, .i32⟩ : BufTy).Contents (Elt F)),
    unary main_call0_c_6 main_call0_v21 ((broadcastInDim S1000000 ![] bcast_S_S1000000) : (⟨S_, .i32⟩ : BufTy).Contents (Elt F) → (⟨S1000000, .i32⟩ : BufTy).Contents (Elt F)),
    binary main_arg14 main_call0_v21 main_call0_v22 (addi : (⟨S1000000, .i32⟩ : BufTy).Contents (Elt F) → (⟨S1000000, .i32⟩ : BufTy).Contents (Elt F) → (⟨S1000000, .i32⟩ : BufTy).Contents (Elt F)),
    ternary main_call0_v20 main_call0_v22 main_arg14 main_call0_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_call0_v23 main_call0_v24 ((broadcastInDim S1000000x1 ![0] bcast_S1000000_S1000000x1_0) : (⟨S1000000, .i32⟩ : BufTy).Contents (Elt F) → (⟨S1000000x1, .i32⟩ : BufTy).Contents (Elt F)),
    binary main_arg1 main_call0_v24 main_call0_v25 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    nullary main_call0_cst_7 (constant S_ .f32 0x00000000#32 : (⟨S_, .f32⟩ : BufTy).Contents (Elt F)),
    unary main_call0_cst_7 main_call0_v26 ((broadcastInDim S50000x128 ![] bcast_S_S50000x128) : (⟨S_, .f32⟩ : BufTy).Contents (Elt F) → (⟨S50000x128, .f32⟩ : BufTy).Contents (Elt F)),
    unary main_arg15 main_call0_v27 ((broadcastInDim S1000000x1 ![0] bcast_S1000000_S1000000x1_0) : (⟨S1000000, .i32⟩ : BufTy).Contents (Elt F) → (⟨S1000000x1, .i32⟩ : BufTy).Contents (Elt F)),
    ternary main_call0_v26 main_call0_v27 main_call0_v25 main_call0_v28 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_call0_cst_8 (constant S_ .f32 0x3F800000#32 : (⟨S_, .f32⟩ : BufTy).Contents (Elt F)),
    unary main_call0_cst_8 main_call0_v29 ((broadcastInDim S1000000 ![] bcast_S_S1000000) : (⟨S_, .f32⟩ : BufTy).Contents (Elt F) → (⟨S1000000, .f32⟩ : BufTy).Contents (Elt F)),
    nullary main_call0_cst_9 (constant S_ .f32 0x00000000#32 : (⟨S_, .f32⟩ : BufTy).Contents (Elt F)),
    unary main_call0_cst_9 main_call0_v30 ((broadcastInDim S50000 ![] bcast_S_S50000) : (⟨S_, .f32⟩ : BufTy).Contents (Elt F) → (⟨S50000, .f32⟩ : BufTy).Contents (Elt F)),
    unary main_arg15 main_call0_v31 ((broadcastInDim S1000000x1 ![0] bcast_S1000000_S1000000x1_0) : (⟨S1000000, .i32⟩ : BufTy).Contents (Elt F) → (⟨S1000000x1, .i32⟩ : BufTy).Contents (Elt F)),
    ternary main_call0_v30 main_call0_v31 main_call0_v29 main_call0_v32 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_call0_cst_10 (constant S_ .f32 0x3F800000#32 : (⟨S_, .f32⟩ : BufTy).Contents (Elt F)),
    unary main_call0_cst_10 main_call0_v33 ((broadcastInDim S50000 ![] bcast_S_S50000) : (⟨S_, .f32⟩ : BufTy).Contents (Elt F) → (⟨S50000, .f32⟩ : BufTy).Contents (Elt F)),
    binary main_call0_v32 main_call0_v33 main_call0_v34 (maximumf : (⟨S50000, .f32⟩ : BufTy).Contents (Elt F) → (⟨S50000, .f32⟩ : BufTy).Contents (Elt F) → (⟨S50000, .f32⟩ : BufTy).Contents (Elt F)),
    nullary main_call0_cst_11 (constant S_ .f32 0x3F800000#32 : (⟨S_, .f32⟩ : BufTy).Contents (Elt F)),
    unary main_call0_cst_11 main_call0_v35 ((broadcastInDim S50000 ![] bcast_S_S50000) : (⟨S_, .f32⟩ : BufTy).Contents (Elt F) → (⟨S50000, .f32⟩ : BufTy).Contents (Elt F)),
    binary main_call0_v35 main_call0_v34 main_call0_v36 (Host.divf : (⟨S50000, .f32⟩ : BufTy).Contents (Elt F) → (⟨S50000, .f32⟩ : BufTy).Contents (Elt F) → (⟨S50000, .f32⟩ : BufTy).Contents (Elt F)),
    reshape main_call0_v36 main_call0_v37 rfl shapeCasts_S50000_S50000x1,
    unary main_arg2 main_call0_v38 ((transpose S128x128 [1, 0] · transposes_S128x128_S128x128_1_0) : (⟨S128x128, .f32⟩ : BufTy).Contents (Elt F) → (⟨S128x128, .f32⟩ : BufTy).Contents (Elt F)),
    unary main_call0_v38 main_call0_v39 ((truncf .bf16 · bitsLt_bf16_f32) : (⟨S128x128, .f32⟩ : BufTy).Contents (Elt F) → (⟨S128x128, .bf16⟩ : BufTy).Contents (Elt F)),
    unary main_arg4 main_call0_v40 ((transpose S128x128 [1, 0] · transposes_S128x128_S128x128_1_0) : (⟨S128x128, .f32⟩ : BufTy).Contents (Elt F) → (⟨S128x128, .f32⟩ : BufTy).Contents (Elt F)),
    unary main_call0_v40 main_call0_v41 ((truncf .bf16 · bitsLt_bf16_f32) : (⟨S128x128, .f32⟩ : BufTy).Contents (Elt F) → (⟨S128x128, .bf16⟩ : BufTy).Contents (Elt F)),
    unary main_arg8 main_call0_v42 ((transpose S128x1 [1, 0] · transposes_S1x128_S128x1_1_0) : (⟨S1x128, .f32⟩ : BufTy).Contents (Elt F) → (⟨S128x1, .f32⟩ : BufTy).Contents (Elt F)),
    unary main_call0_v42 main_call0_v43 ((truncf .bf16 · bitsLt_bf16_f32) : (⟨S128x1, .f32⟩ : BufTy).Contents (Elt F) → (⟨S128x1, .bf16⟩ : BufTy).Contents (Elt F)),
    reshape main_arg3 main_call0_v44 rfl shapeCasts_S128_S1x128,
    reshape main_arg9 main_call0_v45 rfl shapeCasts_S1_S1x1 ]

set_option maxHeartbeats 4000000 in
/-- The stretch is that list: operation by operation, the transports along a reflexive type equation are the identity. -/
theorem hostOps0_eq : (hostOps0 : List (HloOp τ sig (Elt F))) = plainOps0 := rfl

end Plain

variable (W : Valuation τ sig (Elt Ideal))

set_option maxHeartbeats 4000000 in
theorem v18_eq : after (hostOps0 (F := Ideal)) W (Proc.devRef .tc main_call0_v18)
    = recipWells (cntWells (W (Proc.devRef .tc main_arg13))) := by
  rw [hostOps0_eq (F := Ideal)]
  after_results_simp
  rfl

set_option maxHeartbeats 4000000 in
theorem v37_eq : after (hostOps0 (F := Ideal)) W (Proc.devRef .tc main_call0_v37)
    = recipSites (cntSites (W (Proc.devRef .tc main_arg15))) := by
  rw [hostOps0_eq (F := Ideal)]
  after_results_simp
  rfl

end Cert.KernelIdeal.Host

end
-- ==== Proof.KernelValue.lean ====
/-
  The idealized kernel program's two results as the layer's function of the argument arrays.

  The first result column is what the first launch leaves (nothing after it writes that column); the second is what
  the second launch leaves. Each launch's arrays are the host's terms of the arguments: the summed neighbour features,
  the reciprocals of the clamped counts, the destination nodes' own features, the transposed weights, the biases with
  unit axes. So both columns are the layer's output, one per relation.
-/
import proofs.«152094_j29154238005713_2_alg».proof.Proof.KernelRun
import proofs.«152094_j29154238005713_2_alg».proof.Proof.KernelLaunch0
import proofs.«152094_j29154238005713_2_alg».proof.Proof.KernelLaunch1
import proofs.«152094_j29154238005713_2_alg».proof.Proof.KernelHostA
import proofs.«152094_j29154238005713_2_alg».proof.Proof.KernelHostB
import proofs.«152094_j29154238005713_2_alg».proof.Proof.KernelHostC

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- An argument array as launched. -/
abbrev arg (c : Dev nD) (b : Ref sig .tc) : Buf (Elt Ideal) ((c.tc : Thread nD τ).loc b) := m ((c.tc : Thread nD τ).loc b)

/-- The first relation's output column as a function of the arguments. -/
abbrev outWells (c : Dev nD) : FVec Ideal S200000x1 .f32 :=
  Cert.Sage.head (n := 200000)
    (Host.sumsWells (arg m c main_arg0) (arg m c main_arg12) (arg m c main_arg13)) (arg m c main_arg1)
    (Host.cntWells (arg m c main_arg13))
    (transpose S128x128 [1, 0] (arg m c main_arg2 : FVec Ideal S128x128 .f32) transposes_S128x128_S128x128_1_0)
    (transpose S128x128 [1, 0] (arg m c main_arg4 : FVec Ideal S128x128 .f32) transposes_S128x128_S128x128_1_0)
    (arg m c main_arg3)
    (transpose S128x1 [1, 0] (arg m c main_arg8 : FVec Ideal S1x128 .f32) transposes_S1x128_S128x1_1_0)
    (arg m c main_arg9)

/-- The second relation's output column as a function of the arguments. -/
abbrev outSites (c : Dev nD) : FVec Ideal S50000x1 .f32 :=
  Cert.Sage.head (n := 50000)
    (Host.sumsSites (arg m c main_arg1) (arg m c main_arg14) (arg m c main_arg15)) (arg m c main_arg0)
    (Host.cntSites (arg m c main_arg15))
    (transpose S128x128 [1, 0] (arg m c main_arg5 : FVec Ideal S128x128 .f32) transposes_S128x128_S128x128_1_0)
    (transpose S128x128 [1, 0] (arg m c main_arg7 : FVec Ideal S128x128 .f32) transposes_S128x128_S128x128_1_0)
    (arg m c main_arg6)
    (transpose S128x1 [1, 0] (arg m c main_arg10 : FVec Ideal S1x128 .f32) transposes_S1x128_S128x1_1_0)
    (arg m c main_arg11)

/-- After the first launch an argument the first stretch does not write, and the launch does not write, is as launched. -/
theorem W2_arg (c : Dev nD) (b : Ref sig .tc)
    (hb : b = main_arg0 ∨ b = main_arg1 ∨ b = main_arg5 ∨ b = main_arg6 ∨ b = main_arg7 ∨ b = main_arg10 ∨ b = main_arg11)
    (hne : ∀ w, Pipeline.arrRef spec0 w ≠ b) :
    W2 m ρ c (Proc.devRef .tc b) = m ((c.tc : Thread nD τ).loc b) :=
  (W2_of_ne m ρ c b hne).trans ((Host.arg_kept0 (W0 m ρ c) b hb).trans rfl)

/-- The first result column ends as the first relation's output. -/
theorem wells (c : Dev nD) : W4 m ρ c (Proc.devRef .tc main_v0_0) = outWells m c := by
  have s1 : W4 m ρ c (Proc.devRef .tc main_v0_0) = W3 m ρ c (Proc.devRef .tc main_v0_0) :=
    W4_of_ne m ρ c main_v0_0 (by decide)
  have s2 : W3 m ρ c (Proc.devRef .tc main_v0_0) = W2 m ρ c (Proc.devRef .tc main_v0_0) :=
    Host.kept1 (W2 m ρ c) main_v0_0 (Or.inr (Or.inr (Or.inr rfl)))
  have s3 : W2 m ρ c (Proc.devRef .tc main_v0_0) = (dat0 (V1 m ρ) c).arrAt 8 cfg0.N := W2_arr m ρ c 8
  refine s1.trans (s2.trans (s3.trans ?_))
  exact Launch0.final (V1 m ρ)
    (Host.sumsWells (arg m c main_arg0) (arg m c main_arg12) (arg m c main_arg13)) (arg m c main_arg1)
    (Host.recipWells (Host.cntWells (arg m c main_arg13))) (Host.cntWells (arg m c main_arg13))
    (transpose S128x128 [1, 0] (arg m c main_arg2 : FVec Ideal S128x128 .f32) transposes_S128x128_S128x128_1_0)
    (transpose S128x128 [1, 0] (arg m c main_arg4 : FVec Ideal S128x128 .f32) transposes_S128x128_S128x128_1_0)
    (shapeCast S1x128 (arg m c main_arg3 : FVec Ideal S128 .f32) shapeCasts_S128_S1x128) (arg m c main_arg3)
    (transpose S128x1 [1, 0] (arg m c main_arg8 : FVec Ideal S1x128 .f32) transposes_S1x128_S128x1_1_0)
    (shapeCast S1x1 (arg m c main_arg9 : FVec Ideal S1 .f32) shapeCasts_S1_S1x1) (arg m c main_arg9)
    c
    (Host.v9_eq (W0 m ρ c)) (Host.v18_eq (W0 m ρ c)) ((Host.arg_kept0 (W0 m ρ c) main_arg1 (Or.inr (Or.inl rfl))).trans rfl)
    (Host.v39_eq (W0 m ρ c)) (Host.v44_eq (W0 m ρ c)) (Host.v41_eq (W0 m ρ c)) (Host.v43_eq (W0 m ρ c)) (Host.v45_eq (W0 m ρ c))
    (Host.recipWells_apply _) (Host.biasRow_apply _) (Host.biasOne_apply _)

/-- The second result column ends as the second relation's output. -/
theorem sites (c : Dev nD) : W4 m ρ c (Proc.devRef .tc main_v0_1) = outSites m c := by
  have s1 : W4 m ρ c (Proc.devRef .tc main_v0_1) = (dat1 (V3 m ρ) c).arrAt 8 cfg1.N := W4_arr m ρ c 8
  refine s1.trans ?_
  have a0 := W2_arg m ρ c main_arg0 (Or.inl rfl) (by decide)
  have a5 := W2_arg m ρ c main_arg5 (Or.inr (Or.inr (Or.inl rfl))) (by decide)
  have a6 := W2_arg m ρ c main_arg6 (Or.inr (Or.inr (Or.inr (Or.inl rfl)))) (by decide)
  have a7 := W2_arg m ρ c main_arg7 (Or.inr (Or.inr (Or.inr (Or.inr (Or.inl rfl))))) (by decide)
  have a10 := W2_arg m ρ c main_arg10 (Or.inr (Or.inr (Or.inr (Or.inr (Or.inr (Or.inl rfl)))))) (by decide)
  have a11 := W2_arg m ρ c main_arg11 (Or.inr (Or.inr (Or.inr (Or.inr (Or.inr (Or.inr rfl)))))) (by decide)
  have h0 : (V3 m ρ c main_call0_v28 : S50000x128.Idx → EReal)
      = Host.sumsSites (arg m c main_arg1) (arg m c main_arg14) (arg m c main_arg15) :=
    (Host.kept1 (W2 m ρ c) main_call0_v28 (Or.inl rfl)).trans
      ((W2_of_ne m ρ c main_call0_v28 (by decide)).trans (Host.v28_eq (W0 m ρ c)))
  have h1 : (V3 m ρ c main_call0_v37 : S50000x1.Idx → EReal) = Host.recipSites (Host.cntSites (arg m c main_arg15)) :=
    (Host.kept1 (W2 m ρ c) main_call0_v37 (Or.inr (Or.inl rfl))).trans
      ((W2_of_ne m ρ c main_call0_v37 (by decide)).trans (Host.v37_eq (W0 m ρ c)))
  have h2 : (V3 m ρ c main_arg0 : S50000x128.Idx → EReal) = arg m c main_arg0 :=
    (Host.kept1 (W2 m ρ c) main_arg0 (Or.inr (Or.inr (Or.inl rfl)))).trans a0
  have h3 : (V3 m ρ c main_call0_v48 : S128x128.Idx → EReal)
      = transpose S128x128 [1, 0] (arg m c main_arg5 : FVec Ideal S128x128 .f32) transposes_S128x128_S128x128_1_0 :=
    (Host.v48_eq (W2 m ρ c)).trans (congrArg (fun x : FVec Ideal S128x128 .f32 => transpose S128x128 [1, 0] x transposes_S128x128_S128x128_1_0) a5)
  have h4 : (V3 m ρ c main_call0_v53 : S1x128.Idx → EReal)
      = shapeCast S1x128 (arg m c main_arg6 : FVec Ideal S128 .f32) shapeCasts_S128_S1x128 :=
    (Host.v53_eq (W2 m ρ c)).trans (congrArg (fun x : FVec Ideal S128 .f32 => shapeCast S1x128 x shapeCasts_S128_S1x128) a6)
  have h5 : (V3 m ρ c main_call0_v50 : S128x128.Idx → EReal)
      = transpose S128x128 [1, 0] (arg m c main_arg7 : FVec Ideal S128x128 .f32) transposes_S128x128_S128x128_1_0 :=
    (Host.v50_eq (W2 m ρ c)).trans (congrArg (fun x : FVec Ideal S128x128 .f32 => transpose S128x128 [1, 0] x transposes_S128x128_S128x128_1_0) a7)
  have h6 : (V3 m ρ c main_call0_v52 : S128x1.Idx → EReal)
      = transpose S128x1 [1, 0] (arg m c main_arg10 : FVec Ideal S1x128 .f32) transposes_S1x128_S128x1_1_0 :=
    (Host.v52_eq (W2 m ρ c)).trans (congrArg (fun x : FVec Ideal S1x128 .f32 => transpose S128x1 [1, 0] x transposes_S1x128_S128x1_1_0) a10)
  have h7 : (V3 m ρ c main_call0_v54 : S1x1.Idx → EReal)
      = shapeCast S1x1 (arg m c main_arg11 : FVec Ideal S1 .f32) shapeCasts_S1_S1x1 :=
    (Host.v54_eq (W2 m ρ c)).trans (congrArg (fun x : FVec Ideal S1 .f32 => shapeCast S1x1 x shapeCasts_S1_S1x1) a11)
  exact Launch1.final (V3 m ρ) _ _ _ (Host.cntSites (arg m c main_arg15)) _ _ _ (arg m c main_arg6) _ _ (arg m c main_arg11)
    c h0 h1 h2 h3 h4 h5 h6 h7 (Host.recipSites_apply _) (Host.biasRow_apply _) (Host.biasOne_apply _)

/-- Every weakly fair execution of the idealized kernel program terminates without a fault, its two results the two
    relations' output columns, its arguments unchanged. -/
theorem run : θ_run defs (onTc (τ := τ) (main (F := Ideal))) ⟨m, fun _ => 0, ρ⟩ (fun r => ∀ c : Dev nD,
      r.2.mem ((c.tc : Thread nD τ).loc main_v0_0) = outWells m c
      ∧ r.2.mem ((c.tc : Thread nD τ).loc main_v0_1) = outSites m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (wells m ρ c), (h c).2.1.trans (sites m ρ c), (h c).2.2⟩)
    (KRun.run_values (F := Ideal) m ρ)

end Cert.KernelIdeal.KValue

end
-- ==== Proof.RefRun.lean ====
/-
  The reference program's run, as a list of host operations.

  The reference is a straight line of array operations: per relation a gather of the source rows along the edges, a
  scatter-add of them and of ones at the destinations, the quotient by the count bounded below by one, two matrix
  products with a bias between them, the rectifier, a matrix product with the head's column, its bias, and the leaky
  rectifier. Four of these steps are written as calls of small functions (the two rectifiers, and the two leaky rectifiers,
  each of which calls a selection); a call executes the callee's operations on the caller's buffers, so the program is the
  list below: the program's own operations in order, each callee's operations standing at its call. Every weakly fair
  execution terminates, and leaves in each buffer the fold of the list over the contents at launch.
-/
import proofs.«152094_j29154238005713_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 98 operations in order. The two rectifiers are three operations each (the zero, its broadcast, the
    maximum); each leaky rectifier is seven (the zero, its broadcast, the comparison, the slope converted to its own
    type, its broadcast, the product, and the selection the inner call makes). A callee's operation is written at the
    buffers its call names, with its function at the buffers' own types. -/
abbrev ops : List (HloOp τ sig (Elt F)) :=
  [ nullary main_c (constantI S_ 32 0#32),
    unary main_c main_v0 (broadcastInDim S1000000 ![] bcast_S_S1000000 : (⟨S_, .i32⟩ : BufTy).Contents (Elt F) → (⟨S1000000, .i32⟩ : BufTy).Contents (Elt F)),
    binary main_arg12 main_v0 main_v1 (cmpi .slt : (⟨S1000000, .i32⟩ : BufTy).Contents (Elt F) → (⟨S1000000, .i32⟩ : BufTy).Contents (Elt F) → (⟨S1000000, .i1⟩ : BufTy).Contents (Elt F)),
    nullary main_c_0 (constantI S_ 32 50000#32),
    unary main_c_0 main_v2 (broadcastInDim S1000000 ![] bcast_S_S1000000 : (⟨S_, .i32⟩ : BufTy).Contents (Elt F) → (⟨S1000000, .i32⟩ : BufTy).Contents (Elt F)),
    binary main_arg12 main_v2 main_v3 (addi : (⟨S1000000, .i32⟩ : BufTy).Contents (Elt F) → (⟨S1000000, .i32⟩ : BufTy).Contents (Elt F) → (⟨S1000000, .i32⟩ : BufTy).Contents (Elt F)),
    ternary main_v1 main_v3 main_arg12 main_v4 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v4 main_v5 (broadcastInDim S1000000x1 ![0] bcast_S1000000_S1000000x1_0 : (⟨S1000000, .i32⟩ : BufTy).Contents (Elt F) → (⟨S1000000x1, .i32⟩ : BufTy).Contents (Elt F)),
    binary main_arg0 main_v5 main_v6 ((fun x i => Host.gather gather_S50000x128_S1000000x1_S1000000x128_1_0_n_n_0_1_1128 x i) : (⟨S50000x128, .f32⟩ : BufTy).Contents (Elt F) → (⟨S1000000x1, .i32⟩ : BufTy).Contents (Elt F) → (⟨S1000000x128, .f32⟩ : BufTy).Contents (Elt F)),
    nullary main_cst (constant S_ .f32 0x00000000#32),
    unary main_cst main_v7 (broadcastInDim S200000x128 ![] bcast_S_S200000x128 : (⟨S_, .f32⟩ : BufTy).Contents (Elt F) → (⟨S200000x128, .f32⟩ : BufTy).Contents (Elt F)),
    unary main_arg13 main_v8 (broadcastInDim S1000000x1 ![0] bcast_S1000000_S1000000x1_0 : (⟨S1000000, .i32⟩ : BufTy).Contents (Elt F) → (⟨S1000000x1, .i32⟩ : BufTy).Contents (Elt F)),
    ternary main_v7 main_v8 main_v6 main_v9 ((fun x i u => Host.scatterAdd scatter_S200000x128_S1000000x1_S1000000x128_1_0_0_1 x i u) : (⟨S200000x128, .f32⟩ : BufTy).Contents (Elt F) → (⟨S1000000x1, .i32⟩ : BufTy).Contents (Elt F) → (⟨S1000000x128, .f32⟩ : BufTy).Contents (Elt F) → (⟨S200000x128, .f32⟩ : BufTy).Contents (Elt F)),
    nullary main_cst_1 (constant S_ .f32 0x3F800000#32),
    unary main_cst_1 main_v10 (broadcastInDim S1000000 ![] bcast_S_S1000000 : (⟨S_, .f32⟩ : BufTy).Contents (Elt F) → (⟨S1000000, .f32⟩ : BufTy).Contents (Elt F)),
    nullary main_cst_2 (constant S_ .f32 0x00000000#32),
    unary main_cst_2 main_v11 (broadcastInDim S200000 ![] bcast_S_S200000 : (⟨S_, .f32⟩ : BufTy).Contents (Elt F) → (⟨S200000, .f32⟩ : BufTy).Contents (Elt F)),
    unary main_arg13 main_v12 (broadcastInDim S1000000x1 ![0] bcast_S1000000_S1000000x1_0 : (⟨S1000000, .i32⟩ : BufTy).Contents (Elt F) → (⟨S1000000x1, .i32⟩ : BufTy).Contents (Elt F)),
    ternary main_v11 main_v12 main_v10 main_v13 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    nullary main_cst_3 (constant S_ .f32 0x3F800000#32),
    unary main_cst_3 main_v14 (broadcastInDim S200000 ![] bcast_S_S200000 : (⟨S_, .f32⟩ : BufTy).Contents (Elt F) → (⟨S200000, .f32⟩ : BufTy).Contents (Elt F)),
    binary main_v13 main_v14 main_v15 (maximumf : (⟨S200000, .f32⟩ : BufTy).Contents (Elt F) → (⟨S200000, .f32⟩ : BufTy).Contents (Elt F) → (⟨S200000, .f32⟩ : BufTy).Contents (Elt F)),
    unary main_v15 main_v16 (broadcastInDim S200000x1 ![0] bcast_S200000_S200000x1_0 : (⟨S200000, .f32⟩ : BufTy).Contents (Elt F) → (⟨S200000x1, .f32⟩ : BufTy).Contents (Elt F)),
    unary main_v16 main_v17 (broadcastInDim S200000x128 ![0, 1] bcast_S200000x1_S200000x128_0_1 : (⟨S200000x1, .f32⟩ : BufTy).Contents (Elt F) → (⟨S200000x128, .f32⟩ : BufTy).Contents (Elt F)),
    binary main_v9 main_v17 main_v18 (Host.divf : (⟨S200000x128, .f32⟩ : BufTy).Contents (Elt F) → (⟨S200000x128, .f32⟩ : BufTy).Contents (Elt F) → (⟨S200000x128, .f32⟩ : BufTy).Contents (Elt F)),
    unary main_arg2 main_v19 ((transpose S128x128 [1, 0] · transposes_S128x128_S128x128_1_0) : (⟨S128x128, .f32⟩ : BufTy).Contents (Elt F) → (⟨S128x128, .f32⟩ : BufTy).Contents (Elt F)),
    binary main_v18 main_v19 main_v20 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    unary main_arg3 main_v21 (broadcastInDim S1x128 ![1] bcast_S128_S1x128_1 : (⟨S128, .f32⟩ : BufTy).Contents (Elt F) → (⟨S1x128, .f32⟩ : BufTy).Contents (Elt F)),
    unary main_v21 main_v22 (broadcastInDim S200000x128 ![0, 1] bcast_S1x128_S200000x128_0_1 : (⟨S1x128, .f32⟩ : BufTy).Contents (Elt F) → (⟨S200000x128, .f32⟩ : BufTy).Contents (Elt F)),
    binary main_v20 main_v22 main_v23 (addf : (⟨S200000x128, .f32⟩ : BufTy).Contents (Elt F) → (⟨S200000x128, .f32⟩ : BufTy).Contents (Elt F) → (⟨S200000x128, .f32⟩ : BufTy).Contents (Elt F)),
    unary main_arg4 main_v24 ((transpose S128x128 [1, 0] · transposes_S128x128_S128x128_1_0) : (⟨S128x128, .f32⟩ : BufTy).Contents (Elt F) → (⟨S128x128, .f32⟩ : BufTy).Contents (Elt F)),
    binary main_arg1 main_v24 main_v25 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    binary main_v23 main_v25 main_v26 (addf : (⟨S200000x128, .f32⟩ : BufTy).Contents (Elt F) → (⟨S200000x128, .f32⟩ : BufTy).Contents (Elt F) → (⟨S200000x128, .f32⟩ : BufTy).Contents (Elt F)),
    nullary main_c_4 (constantI S_ 32 0#32),
    unary main_c_4 main_v27 (broadcastInDim S1000000 ![] bcast_S_S1000000 : (⟨S_, .i32⟩ : BufTy).Contents (Elt F) → (⟨S1000000, .i32⟩ : BufTy).Contents (Elt F)),
    binary main_arg14 main_v27 main_v28 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 200000#32),
    unary main_c_5 main_v29 (broadcastInDim S1000000 ![] bcast_S_S1000000 : (⟨S_, .i32⟩ : BufTy).Contents (Elt F) → (⟨S1000000, .i32⟩ : BufTy).Contents (Elt F)),
    binary main_arg14 main_v29 main_v30 (addi : (⟨S1000000, .i32⟩ : BufTy).Contents (Elt F) → (⟨S1000000, .i32⟩ : BufTy).Contents (Elt F) → (⟨S1000000, .i32⟩ : BufTy).Contents (Elt F)),
    ternary main_v28 main_v30 main_arg14 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v31 main_v32 (broadcastInDim S1000000x1 ![0] bcast_S1000000_S1000000x1_0 : (⟨S1000000, .i32⟩ : BufTy).Contents (Elt F) → (⟨S1000000x1, .i32⟩ : BufTy).Contents (Elt F)),
    binary main_arg1 main_v32 main_v33 ((fun x i => Host.gather gather_S200000x128_S1000000x1_S1000000x128_1_0_n_n_0_1_1128 x i) : (⟨S200000x128, .f32⟩ : BufTy).Contents (Elt F) → (⟨S1000000x1, .i32⟩ : BufTy).Contents (Elt F) → (⟨S1000000x128, .f32⟩ : BufTy).Contents (Elt F)),
    nullary main_cst_6 (constant S_ .f32 0x00000000#32),
    unary main_cst_6 main_v34 (broadcastInDim S50000x128 ![] bcast_S_S50000x128 : (⟨S_, .f32⟩ : BufTy).Contents (Elt F) → (⟨S50000x128, .f32⟩ : BufTy).Contents (Elt F)),
    unary main_arg15 main_v35 (broadcastInDim S1000000x1 ![0] bcast_S1000000_S1000000x1_0 : (⟨S1000000, .i32⟩ : BufTy).Contents (Elt F) → (⟨S1000000x1, .i32⟩ : BufTy).Contents (Elt F)),
    ternary main_v34 main_v35 main_v33 main_v36 ((fun x i u => Host.scatterAdd scatter_S50000x128_S1000000x1_S1000000x128_1_0_0_1 x i u) : (⟨S50000x128, .f32⟩ : BufTy).Contents (Elt F) → (⟨S1000000x1, .i32⟩ : BufTy).Contents (Elt F) → (⟨S1000000x128, .f32⟩ : BufTy).Contents (Elt F) → (⟨S50000x128, .f32⟩ : BufTy).Contents (Elt F)),
    nullary main_cst_7 (constant S_ .f32 0x3F800000#32),
    unary main_cst_7 main_v37 (broadcastInDim S1000000 ![] bcast_S_S1000000 : (⟨S_, .f32⟩ : BufTy).Contents (Elt F) → (⟨S1000000, .f32⟩ : BufTy).Contents (Elt F)),
    nullary main_cst_8 (constant S_ .f32 0x00000000#32),
    unary main_cst_8 main_v38 (broadcastInDim S50000 ![] bcast_S_S50000 : (⟨S_, .f32⟩ : BufTy).Contents (Elt F) → (⟨S50000, .f32⟩ : BufTy).Contents (Elt F)),
    unary main_arg15 main_v39 (broadcastInDim S1000000x1 ![0] bcast_S1000000_S1000000x1_0 : (⟨S1000000, .i32⟩ : BufTy).Contents (Elt F) → (⟨S1000000x1, .i32⟩ : BufTy).Contents (Elt F)),
    ternary main_v38 main_v39 main_v37 main_v40 ((fun x i u => Host.scatterAdd scatter_S50000_S1000000x1_S1000000_n_0_0_1 x i u) : (⟨S50000, .f32⟩ : BufTy).Contents (Elt F) → (⟨S1000000x1, .i32⟩ : BufTy).Contents (Elt F) → (⟨S1000000, .f32⟩ : BufTy).Contents (Elt F) → (⟨S50000, .f32⟩ : BufTy).Contents (Elt F)),
    nullary main_cst_9 (constant S_ .f32 0x3F800000#32),
    unary main_cst_9 main_v41 (broadcastInDim S50000 ![] bcast_S_S50000 : (⟨S_, .f32⟩ : BufTy).Contents (Elt F) → (⟨S50000, .f32⟩ : BufTy).Contents (Elt F)),
    binary main_v40 main_v41 main_v42 (maximumf : (⟨S50000, .f32⟩ : BufTy).Contents (Elt F) → (⟨S50000, .f32⟩ : BufTy).Contents (Elt F) → (⟨S50000, .f32⟩ : BufTy).Contents (Elt F)),
    unary main_v42 main_v43 (broadcastInDim S50000x1 ![0] bcast_S50000_S50000x1_0 : (⟨S50000, .f32⟩ : BufTy).Contents (Elt F) → (⟨S50000x1, .f32⟩ : BufTy).Contents (Elt F)),
    unary main_v43 main_v44 (broadcastInDim S50000x128 ![0, 1] bcast_S50000x1_S50000x128_0_1 : (⟨S50000x1, .f32⟩ : BufTy).Contents (Elt F) → (⟨S50000x128, .f32⟩ : BufTy).Contents (Elt F)),
    binary main_v36 main_v44 main_v45 (Host.divf : (⟨S50000x128, .f32⟩ : BufTy).Contents (Elt F) → (⟨S50000x128, .f32⟩ : BufTy).Contents (Elt F) → (⟨S50000x128, .f32⟩ : BufTy).Contents (Elt F)),
    unary main_arg5 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    unary main_arg7 main_v51 ((transpose S128x128 [1, 0] · transposes_S128x128_S128x128_1_0) : (⟨S128x128, .f32⟩ : BufTy).Contents (Elt F) → (⟨S128x128, .f32⟩ : BufTy).Contents (Elt F)),
    binary main_arg0 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_call0_cst (constant S_ .f32 0x00000000#32),
    unary main_call0_cst main_call0_v0 (broadcastInDim S200000x128 ![] bcast_S_S200000x128 : (⟨S_, .f32⟩ : BufTy).Contents (Elt F) → (⟨S200000x128, .f32⟩ : BufTy).Contents (Elt F)),
    binary main_v26 main_call0_v0 main_v54 (maximumf : (⟨S200000x128, .f32⟩ : BufTy).Contents (Elt F) → (⟨S200000x128, .f32⟩ : BufTy).Contents (Elt F) → (⟨S200000x128, .f32⟩ : BufTy).Contents (Elt F)),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v53 main_call1_v0 main_v55 (maximumf : (⟨S50000x128, .f32⟩ : BufTy).Contents (Elt F) → (⟨S50000x128, .f32⟩ : BufTy).Contents (Elt F) → (⟨S50000x128, .f32⟩ : BufTy).Contents (Elt F)),
    unary main_arg8 main_v56 ((transpose S128x1 [1, 0] · transposes_S1x128_S128x1_1_0) : (⟨S1x128, .f32⟩ : BufTy).Contents (Elt F) → (⟨S128x1, .f32⟩ : BufTy).Contents (Elt F)),
    binary main_v54 main_v56 main_v57 ((fun l r => Host.dotGeneral dot_S200000x128_S128x1_S200000x1_1_0_0_1_n_n none l r) : (⟨S200000x128, .f32⟩ : BufTy).Contents (Elt F) → (⟨S128x1, .f32⟩ : BufTy).Contents (Elt F) → (⟨S200000x1, .f32⟩ : BufTy).Contents (Elt F)),
    unary main_arg9 main_v58 (broadcastInDim S1x1 ![1] bcast_S1_S1x1_1 : (⟨S1, .f32⟩ : BufTy).Contents (Elt F) → (⟨S1x1, .f32⟩ : BufTy).Contents (Elt F)),
    unary main_v58 main_v59 (broadcastInDim S200000x1 ![0, 1] bcast_S1x1_S200000x1_0_1 : (⟨S1x1, .f32⟩ : BufTy).Contents (Elt F) → (⟨S200000x1, .f32⟩ : BufTy).Contents (Elt F)),
    binary main_v57 main_v59 main_v60 (addf : (⟨S200000x1, .f32⟩ : BufTy).Contents (Elt F) → (⟨S200000x1, .f32⟩ : BufTy).Contents (Elt F) → (⟨S200000x1, .f32⟩ : BufTy).Contents (Elt F)),
    nullary main_cst_10 (constant S_ .f32 0x3A83126F#32),
    nullary main_call2_cst (constant S_ .f32 0x00000000#32),
    unary main_call2_cst main_call2_v0 (broadcastInDim S200000x1 ![] bcast_S_S200000x1 : (⟨S_, .f32⟩ : BufTy).Contents (Elt F) → (⟨S200000x1, .f32⟩ : BufTy).Contents (Elt F)),
    binary main_v60 main_call2_v0 main_call2_v1 (cmpf .oge : (⟨S200000x1, .f32⟩ : BufTy).Contents (Elt F) → (⟨S200000x1, .f32⟩ : BufTy).Contents (Elt F) → (⟨S200000x1, .i1⟩ : BufTy).Contents (Elt F)),
    unary main_cst_10 main_call2_v2 (id : (⟨S_, .f32⟩ : BufTy).Contents (Elt F) → (⟨S_, .f32⟩ : BufTy).Contents (Elt F)),
    unary main_call2_v2 main_call2_v3 (broadcastInDim S200000x1 ![] bcast_S_S200000x1 : (⟨S_, .f32⟩ : BufTy).Contents (Elt F) → (⟨S200000x1, .f32⟩ : BufTy).Contents (Elt F)),
    binary main_call2_v3 main_v60 main_call2_v4 (mulf : (⟨S200000x1, .f32⟩ : BufTy).Contents (Elt F) → (⟨S200000x1, .f32⟩ : BufTy).Contents (Elt F) → (⟨S200000x1, .f32⟩ : BufTy).Contents (Elt F)),
    ternary main_call2_v1 main_v60 main_call2_v4 main_v61 (select : (⟨S200000x1, .i1⟩ : BufTy).Contents (Elt F) → (⟨S200000x1, .f32⟩ : BufTy).Contents (Elt F) → (⟨S200000x1, .f32⟩ : BufTy).Contents (Elt F) → (⟨S200000x1, .f32⟩ : BufTy).Contents (Elt F)),
    unary main_arg10 main_v62 ((transpose S128x1 [1, 0] · transposes_S1x128_S128x1_1_0) : (⟨S1x128, .f32⟩ : BufTy).Contents (Elt F) → (⟨S128x1, .f32⟩ : BufTy).Contents (Elt F)),
    binary main_v55 main_v62 main_v63 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    unary main_arg11 main_v64 (broadcastInDim S1x1 ![1] bcast_S1_S1x1_1 : (⟨S1, .f32⟩ : BufTy).Contents (Elt F) → (⟨S1x1, .f32⟩ : BufTy).Contents (Elt F)),
    unary main_v64 main_v65 (broadcastInDim S50000x1 ![0, 1] bcast_S1x1_S50000x1_0_1 : (⟨S1x1, .f32⟩ : BufTy).Contents (Elt F) → (⟨S50000x1, .f32⟩ : BufTy).Contents (Elt F)),
    binary main_v63 main_v65 main_v66 (addf : (⟨S50000x1, .f32⟩ : BufTy).Contents (Elt F) → (⟨S50000x1, .f32⟩ : BufTy).Contents (Elt F) → (⟨S50000x1, .f32⟩ : BufTy).Contents (Elt F)),
    nullary main_cst_11 (constant S_ .f32 0x3A83126F#32),
    nullary main_call3_cst (constant S_ .f32 0x00000000#32),
    unary main_call3_cst main_call3_v0 (broadcastInDim S50000x1 ![] bcast_S_S50000x1 : (⟨S_, .f32⟩ : BufTy).Contents (Elt F) → (⟨S50000x1, .f32⟩ : BufTy).Contents (Elt F)),
    binary main_v66 main_call3_v0 main_call3_v1 (cmpf .oge : (⟨S50000x1, .f32⟩ : BufTy).Contents (Elt F) → (⟨S50000x1, .f32⟩ : BufTy).Contents (Elt F) → (⟨S50000x1, .i1⟩ : BufTy).Contents (Elt F)),
    unary main_cst_11 main_call3_v2 (id : (⟨S_, .f32⟩ : BufTy).Contents (Elt F) → (⟨S_, .f32⟩ : BufTy).Contents (Elt F)),
    unary main_call3_v2 main_call3_v3 (broadcastInDim S50000x1 ![] bcast_S_S50000x1 : (⟨S_, .f32⟩ : BufTy).Contents (Elt F) → (⟨S50000x1, .f32⟩ : BufTy).Contents (Elt F)),
    binary main_call3_v3 main_v66 main_call3_v4 (mulf : (⟨S50000x1, .f32⟩ : BufTy).Contents (Elt F) → (⟨S50000x1, .f32⟩ : BufTy).Contents (Elt F) → (⟨S50000x1, .f32⟩ : BufTy).Contents (Elt F)),
    ternary main_call3_v1 main_v66 main_call3_v4 main_v67 (select : (⟨S50000x1, .i1⟩ : BufTy).Contents (Elt F) → (⟨S50000x1, .f32⟩ : BufTy).Contents (Elt F) → (⟨S50000x1, .f32⟩ : BufTy).Contents (Elt F) → (⟨S50000x1, .f32⟩ : BufTy).Contents (Elt F)) ]

set_option maxRecDepth 8192 in
set_option maxHeartbeats 4000000 in
/-- The program is that straight line: the two windows it is printed in, the functions' definitions at their calls and
    the call records at their fields all unfold, and both sides are one chain of the same steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation names TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., unary_bufs_sub .., binary_bufs_sub ..,
    unary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- At the compiled mesh, for any float values, from any memory with zero counters: every weakly fair execution of the
    program on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefLayer.lean ====
/-
  One layer of mean-aggregation message passing and its scalar head, as array operations, read at a node.

  The layer is written with whole-array operations: the summed neighbour features divided by the neighbour count
  bounded below by one (the count broadcast to a column and then across the features), two matrix products with a bias
  row between them, the maximum with zero, a matrix product with the head's column, the head's bias, and a selection
  between the result and its product with the slope on the test "result ≥ 0". Read at node r, each array operation is
  the scalar operation on the operands read at r: a broadcast reads its operand at the coordinates it keeps, a matrix
  product is the sum over the contracted axis, an elementwise operation acts at the index. Composed, the array at
  (r, 0) is the layer's output at node r. For any number of nodes.
-/
import proofs.«152094_j29154238005713_2_alg».proof.Proof.SageSpec
import proofs.«152094_j29154238005713_2_alg».proof.Proof.LibPlainDot
import proofs.«152094_j29154238005713_2_alg».proof.Proof.LibRowBroadcasts
import Idealize.ShloMosaic.Lib.Pipeline.Value
import Idealize.ShloMosaic.Lib.ValueIdx
import Idealize.ShloMosaic.PureOps.Ideal.Laws

noncomputable section

namespace Cert.Sage.Layer

open Idealize.ShloMosaic Idealize.ShloMosaic.ValueIdx
open scoped BigOperators

/-- A scalar broadcast reads the scalar at every index. -/
theorem scalar_apply {α : Type} {t : Shape} (v : (⟨0, ![]⟩ : Shape).Idx → α)
    (h : (⟨0, ![]⟩ : Shape).BroadcastsInDim t (![] : Fin 0 → Fin t.rank)) (j : t.Idx) :
    broadcastInDim t ![] h v j = v ix0 :=
  broadcastInDim_apply _ h v j ix0 fun ax => ax.elim0

/-- A length-`a` vector broadcast along dimension 0 to an `a × 1` column reads, at `(p, ·)`, the vector at `p`. -/
theorem vecCol_apply {α : Type} {a : Nat} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A length-`b` vector broadcast along dimension 1 to a `1 × b` row reads, at `(·, q)`, the vector at `q`. -/
theorem vecRow_apply {α : Type} {b : Nat} (v : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h v (ix2 u q) = v (ix1 q) :=
  broadcastInDim_apply _ h v (ix2 u q) (ix1 q) fun ax => by
    match ax with
    | ⟨0, _⟩ =>
      show q.val = if b = 1 then 0 else q.val
      split
      · have := q.isLt; omega
      · rfl

variable {n : Nat}

/-- The mean at (r, k): the summed features at (r, k) over the count at r bounded below by one. The count's bound is a
    maximum with the broadcast word of 1; the bounded count becomes a column, the column is broadcast across the
    features, and the quotient is elementwise. -/
theorem mean_apply (S : FVec Ideal ⟨2, ![n, 128]⟩ .f32) (cnt : FVec Ideal ⟨1, ![n]⟩ .f32)
    (hs1 : (⟨0, ![]⟩ : Shape).BroadcastsInDim ⟨1, ![n]⟩ (![] : Fin 0 → Fin 1))
    (hc0 : (⟨1, ![n]⟩ : Shape).BroadcastsInDim ⟨2, ![n, 1]⟩ ![0])
    (hc1 : (⟨2, ![n, 1]⟩ : Shape).BroadcastsInDim ⟨2, ![n, 128]⟩ ![0, 1]) (r : Fin n) (k : Fin 128) :
    Host.divf S (broadcastInDim ⟨2, ![n, 128]⟩ ![0, 1] hc1 (broadcastInDim ⟨2, ![n, 1]⟩ ![0] hc0
        (maximumf cnt (broadcastInDim ⟨1, ![n]⟩ ![] hs1 (constant (F := Ideal) ⟨0, ![]⟩ .f32 0x3F800000#32))))) (ix2 r k)
      = Ideal.div (S (ix2 r k)) (max (cnt (ix1 r)) oneW) := by
  have e1 : broadcastInDim ⟨2, ![n, 128]⟩ ![0, 1] hc1 (broadcastInDim ⟨2, ![n, 1]⟩ ![0] hc0
        (maximumf cnt (broadcastInDim ⟨1, ![n]⟩ ![] hs1 (constant (F := Ideal) ⟨0, ![]⟩ .f32 0x3F800000#32)))) (ix2 r k)
      = max (cnt (ix1 r)) oneW :=
    ((Cert.Lib.Rows.dimCol_apply _ hc1 r k).trans (vecCol_apply _ hc0 r 0)).trans
      (congrArg (max (cnt (ix1 r))) (scalar_apply _ hs1 (ix1 r)))
  exact congrArg (Ideal.div (S (ix2 r k))) e1

/-- A hidden unit at (r, q): the two products are sums over the 128 features, the bias row reads the bias at q, the
    zero array reads the word of 0; the bias is added before the root term, which is the same sum. -/
theorem hid_apply (M X : FVec Ideal ⟨2, ![n, 128]⟩ .f32) (WlT WrT : FVec Ideal ⟨2, ![128, 128]⟩ .f32)
    (bl : FVec Ideal ⟨1, ![128]⟩ .f32)
    (wf1 : DotDims.WF ⟨2, ![n, 128]⟩ ⟨2, ![128, 128]⟩ ⟨2, ![n, 128]⟩ [1] [0] [0] [1] [] [])
    (hb0 : (⟨1, ![128]⟩ : Shape).BroadcastsInDim ⟨2, ![1, 128]⟩ ![1])
    (hb1 : (⟨2, ![1, 128]⟩ : Shape).BroadcastsInDim ⟨2, ![n, 128]⟩ ![0, 1])
    (hz2 : (⟨0, ![]⟩ : Shape).BroadcastsInDim ⟨2, ![n, 128]⟩ (![] : Fin 0 → Fin 2)) (r : Fin n) (q : Fin 128) :
    maximumf
        (addf
          (addf (Host.dotGeneral (Cert.Lib.PlainDot.dims wf1) none M WlT)
            (broadcastInDim ⟨2, ![n, 128]⟩ ![0, 1] hb1 (broadcastInDim ⟨2, ![1, 128]⟩ ![1] hb0 bl)))
          (Host.dotGeneral (Cert.Lib.PlainDot.dims wf1) none X WrT))
        (broadcastInDim ⟨2, ![n, 128]⟩ ![] hz2 (constant (F := Ideal) ⟨0, ![]⟩ .f32 0x00000000#32)) (ix2 r q)
      = hidden (fun k => M (ix2 r k)) (fun k => X (ix2 r k)) WlT WrT (fun q => bl (ix1 q)) q := by
  have e1 := Cert.Lib.PlainDot.dotGeneral_apply wf1 none M WlT r q
  have e2 := Cert.Lib.PlainDot.dotGeneral_apply wf1 none X WrT r q
  have e3 : broadcastInDim ⟨2, ![n, 128]⟩ ![0, 1] hb1 (broadcastInDim ⟨2, ![1, 128]⟩ ![1] hb0 bl) (ix2 r q) = bl (ix1 q) :=
    (Cert.Lib.Rows.dimRow_apply _ hb1 r q).trans (vecRow_apply bl hb0 0 q)
  have e4 : broadcastInDim ⟨2, ![n, 128]⟩ ![] hz2 (constant (F := Ideal) ⟨0, ![]⟩ .f32 0x00000000#32) (ix2 r q) = zeroW :=
    scalar_apply _ hz2 (ix2 r q)
  rw [← hidden_bias_first, maximumf_apply, addf_apply, addf_apply, e1, e2, e3, e4]

/-- The output at (r, 0): the head's product is a sum over the hidden units, its bias row reads the bias, and the
    selection on "≥ 0" between the result and the slope times the result is the leaky rectifier. -/
theorem out_apply (H : FVec Ideal ⟨2, ![n, 128]⟩ .f32) (WhT : FVec Ideal ⟨2, ![128, 1]⟩ .f32) (bh : FVec Ideal ⟨1, ![1]⟩ .f32)
    (wf2 : DotDims.WF ⟨2, ![n, 128]⟩ ⟨2, ![128, 1]⟩ ⟨2, ![n, 1]⟩ [1] [0] [0] [1] [] [])
    (hh0 : (⟨1, ![1]⟩ : Shape).BroadcastsInDim ⟨2, ![1, 1]⟩ ![1])
    (hh1 : (⟨2, ![1, 1]⟩ : Shape).BroadcastsInDim ⟨2, ![n, 1]⟩ ![0, 1])
    (hz1 : (⟨0, ![]⟩ : Shape).BroadcastsInDim ⟨2, ![n, 1]⟩ (![] : Fin 0 → Fin 2)) (r : Fin n) (u : Fin 1) :
    select
        (cmpf .oge
          (addf (Host.dotGeneral (Cert.Lib.PlainDot.dims wf2) none H WhT)
            (broadcastInDim ⟨2, ![n, 1]⟩ ![0, 1] hh1 (broadcastInDim ⟨2, ![1, 1]⟩ ![1] hh0 bh)))
          (broadcastInDim ⟨2, ![n, 1]⟩ ![] hz1 (constant (F := Ideal) ⟨0, ![]⟩ .f32 0x00000000#32)))
        (addf (Host.dotGeneral (Cert.Lib.PlainDot.dims wf2) none H WhT)
          (broadcastInDim ⟨2, ![n, 1]⟩ ![0, 1] hh1 (broadcastInDim ⟨2, ![1, 1]⟩ ![1] hh0 bh)))
        (mulf (broadcastInDim ⟨2, ![n, 1]⟩ ![] hz1 (constant (F := Ideal) ⟨0, ![]⟩ .f32 0x3A83126F#32))
          (addf (Host.dotGeneral (Cert.Lib.PlainDot.dims wf2) none H WhT)
            (broadcastInDim ⟨2, ![n, 1]⟩ ![0, 1] hh1 (broadcastInDim ⟨2, ![1, 1]⟩ ![1] hh0 bh)))) (ix2 r u)
      = leaky ((∑ q : Fin 128, H (ix2 r q) * WhT (ix2 q (0 : Fin 1))) + bh (ix1 (0 : Fin 1))) := by
  obtain rfl : u = 0 := Subsingleton.elim _ _
  have ey : addf (Host.dotGeneral (Cert.Lib.PlainDot.dims wf2) none H WhT)
        (broadcastInDim ⟨2, ![n, 1]⟩ ![0, 1] hh1 (broadcastInDim ⟨2, ![1, 1]⟩ ![1] hh0 bh)) (ix2 r (0 : Fin 1))
      = (∑ q : Fin 128, H (ix2 r q) * WhT (ix2 q (0 : Fin 1))) + bh (ix1 (0 : Fin 1)) := by
    rw [addf_apply, Cert.Lib.PlainDot.dotGeneral_apply wf2 none H WhT r 0]
    exact congrArg (_ + ·) ((Cert.Lib.Rows.dimRow_apply _ hh1 r 0).trans (vecRow_apply bh hh0 0 0))
  rw [select_apply, cmpf_apply, mulf_apply, ey, scalar_apply _ hz1, scalar_apply _ hz1]
  exact leaky_ge _

/-- The whole layer: the array the operations compose is the layer's output, node by node. The two products' dimension
    numbers are any records equal to the plain product's. -/
theorem layer_eq (S X : FVec Ideal ⟨2, ![n, 128]⟩ .f32) (cnt : FVec Ideal ⟨1, ![n]⟩ .f32)
    (WlT WrT : FVec Ideal ⟨2, ![128, 128]⟩ .f32) (bl : FVec Ideal ⟨1, ![128]⟩ .f32)
    (WhT : FVec Ideal ⟨2, ![128, 1]⟩ .f32) (bh : FVec Ideal ⟨1, ![1]⟩ .f32)
    (hs1 : (⟨0, ![]⟩ : Shape).BroadcastsInDim ⟨1, ![n]⟩ (![] : Fin 0 → Fin 1))
    (hc0 : (⟨1, ![n]⟩ : Shape).BroadcastsInDim ⟨2, ![n, 1]⟩ ![0])
    (hc1 : (⟨2, ![n, 1]⟩ : Shape).BroadcastsInDim ⟨2, ![n, 128]⟩ ![0, 1])
    (wf1 : DotDims.WF ⟨2, ![n, 128]⟩ ⟨2, ![128, 128]⟩ ⟨2, ![n, 128]⟩ [1] [0] [0] [1] [] [])
    (d1 : DotDims ⟨2, ![n, 128]⟩ ⟨2, ![128, 128]⟩ ⟨2, ![n, 128]⟩) (hd1 : d1 = Cert.Lib.PlainDot.dims wf1)
    (hb0 : (⟨1, ![128]⟩ : Shape).BroadcastsInDim ⟨2, ![1, 128]⟩ ![1])
    (hb1 : (⟨2, ![1, 128]⟩ : Shape).BroadcastsInDim ⟨2, ![n, 128]⟩ ![0, 1])
    (hz2 : (⟨0, ![]⟩ : Shape).BroadcastsInDim ⟨2, ![n, 128]⟩ (![] : Fin 0 → Fin 2))
    (wf2 : DotDims.WF ⟨2, ![n, 128]⟩ ⟨2, ![128, 1]⟩ ⟨2, ![n, 1]⟩ [1] [0] [0] [1] [] [])
    (d2 : DotDims ⟨2, ![n, 128]⟩ ⟨2, ![128, 1]⟩ ⟨2, ![n, 1]⟩) (hd2 : d2 = Cert.Lib.PlainDot.dims wf2)
    (hh0 : (⟨1, ![1]⟩ : Shape).BroadcastsInDim ⟨2, ![1, 1]⟩ ![1])
    (hh1 : (⟨2, ![1, 1]⟩ : Shape).BroadcastsInDim ⟨2, ![n, 1]⟩ ![0, 1])
    (hz1 : (⟨0, ![]⟩ : Shape).BroadcastsInDim ⟨2, ![n, 1]⟩ (![] : Fin 0 → Fin 2)) :
    let mean := Host.divf S (broadcastInDim ⟨2, ![n, 128]⟩ ![0, 1] hc1 (broadcastInDim ⟨2, ![n, 1]⟩ ![0] hc0
        (maximumf cnt (broadcastInDim ⟨1, ![n]⟩ ![] hs1 (constant (F := Ideal) ⟨0, ![]⟩ .f32 0x3F800000#32)))))
    let hid := maximumf
        (addf
          (addf (Host.dotGeneral d1 none mean WlT)
            (broadcastInDim ⟨2, ![n, 128]⟩ ![0, 1] hb1 (broadcastInDim ⟨2, ![1, 128]⟩ ![1] hb0 bl)))
          (Host.dotGeneral d1 none X WrT))
        (broadcastInDim ⟨2, ![n, 128]⟩ ![] hz2 (constant (F := Ideal) ⟨0, ![]⟩ .f32 0x00000000#32))
    let y := addf (Host.dotGeneral d2 none hid WhT)
        (broadcastInDim ⟨2, ![n, 1]⟩ ![0, 1] hh1 (broadcastInDim ⟨2, ![1, 1]⟩ ![1] hh0 bh))
    select (cmpf .oge y (broadcastInDim ⟨2, ![n, 1]⟩ ![] hz1 (constant (F := Ideal) ⟨0, ![]⟩ .f32 0x00000000#32))) y
        (mulf (broadcastInDim ⟨2, ![n, 1]⟩ ![] hz1 (constant (F := Ideal) ⟨0, ![]⟩ .f32 0x3A83126F#32)) y)
      = head S X cnt WlT WrT bl WhT bh := by
  subst hd1 hd2
  intro mean hid y
  funext j
  obtain ⟨r, u, rfl⟩ : ∃ (r : Fin n) (u : Fin 1), j = ix2 r u := ⟨j 0, j 1, eq_ix2 j⟩
  rw [head_apply]
  refine (out_apply hid WhT bh wf2 hh0 hh1 hz1 r u).trans ?_
  unfold nodeOut
  refine congrArg leaky (congrArg (· + bh (ix1 (0 : Fin 1))) (Finset.sum_congr rfl fun q _ => congrArg (· * WhT (ix2 q (0 : Fin 1))) ?_))
  refine (hid_apply mean X WlT WrT bl wf1 hb0 hb1 hz2 r q).trans ?_
  exact congrArg (fun m => hidden m (fun k => X (ix2 r k)) WlT WrT (fun q => bl (ix1 q)) q)
    (funext fun k => mean_apply S cnt hs1 hc0 hc1 r k)

end Cert.Sage.Layer

end
-- ==== Proof.RefValue.lean ====
/-
  The reference program's two results, as the layer's function of the arguments.

  The fold of the reference's operations at a result buffer is a nested array term over the arguments' contents at
  launch: the gather along the edges' sources and the two scatter-adds at the edges' destinations (carried whole, as
  the summed neighbour features and the neighbour counts), and over them the quotient, the products, the biases and the
  two rectifiers. That array term is the layer's output read node by node. No operation writes an argument's buffer, so
  each argument ends as launched.
-/
import proofs.«152094_j29154238005713_2_alg».proof.Proof.RefRun
import proofs.«152094_j29154238005713_2_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The neighbours' features summed at each well: the sites' rows gathered along the edges' sources (a negative source
    index wrapped once), added at the edges' destinations into zeros. -/
def sumsWells (V : Valuation τ sig (Elt Ideal)) : FVec Ideal S200000x128 .f32 :=
  Host.scatterAdd (F := Ideal) scatter_S200000x128_S1000000x1_S1000000x128_1_0_0_1
    (broadcastInDim S200000x128 ![] bcast_S_S200000x128 (constant (F := Ideal) S_ .f32 0x00000000#32))
    (broadcastInDim S1000000x1 ![0] bcast_S1000000_S1000000x1_0 (V (main_arg13 : DevRef τ sig)))
    (Host.gather gather_S50000x128_S1000000x1_S1000000x128_1_0_n_n_0_1_1128 (V (main_arg0 : DevRef τ sig))
      (broadcastInDim S1000000x1 ![0] bcast_S1000000_S1000000x1_0
        (select (cmpi .slt (V (main_arg12 : DevRef τ sig)) (broadcastInDim S1000000 ![] bcast_S_S1000000 (constantI S_ 32 0#32)))
          (addi (V (main_arg12 : DevRef τ sig)) (broadcastInDim S1000000 ![] bcast_S_S1000000 (constantI S_ 32 50000#32)))
          (V (main_arg12 : DevRef τ sig)))))

/-- The number of edges arriving at each well: ones added at the edges' destinations into zeros. -/
def cntWells (V : Valuation τ sig (Elt Ideal)) : FVec Ideal S200000 .f32 :=
  Host.scatterAdd (F := Ideal) scatter_S200000_S1000000x1_S1000000_n_0_0_1
    (broadcastInDim S200000 ![] bcast_S_S200000 (constant (F := Ideal) S_ .f32 0x00000000#32))
    (broadcastInDim S1000000x1 ![0] bcast_S1000000_S1000000x1_0 (V (main_arg13 : DevRef τ sig)))
    (broadcastInDim S1000000 ![] bcast_S_S1000000 (constant (F := Ideal) S_ .f32 0x3F800000#32))

/-- The neighbours' features summed at each site: the wells' rows gathered along the edges' sources, added at the
    edges' destinations into zeros. -/
def sumsSites (V : Valuation τ sig (Elt Ideal)) : FVec Ideal S50000x128 .f32 :=
  Host.scatterAdd (F := Ideal) scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 (V (main_arg15 : DevRef τ sig)))
    (Host.gather gather_S200000x128_S1000000x1_S1000000x128_1_0_n_n_0_1_1128 (V (main_arg1 : DevRef τ sig))
      (broadcastInDim S1000000x1 ![0] bcast_S1000000_S1000000x1_0
        (select (cmpi .slt (V (main_arg14 : DevRef τ sig)) (broadcastInDim S1000000 ![] bcast_S_S1000000 (constantI S_ 32 0#32)))
          (addi (V (main_arg14 : DevRef τ sig)) (broadcastInDim S1000000 ![] bcast_S_S1000000 (constantI S_ 32 200000#32)))
          (V (main_arg14 : DevRef τ sig)))))

/-- The number of edges arriving at each site. -/
def cntSites (V : Valuation τ sig (Elt Ideal)) : FVec Ideal S50000 .f32 :=
  Host.scatterAdd (F := Ideal) scatter_S50000_S1000000x1_S1000000_n_0_0_1
    (broadcastInDim S50000 ![] bcast_S_S50000 (constant (F := Ideal) S_ .f32 0x00000000#32))
    (broadcastInDim S1000000x1 ![0] bcast_S1000000_S1000000x1_0 (V (main_arg15 : DevRef τ sig)))
    (broadcastInDim S1000000 ![] bcast_S_S1000000 (constant (F := Ideal) S_ .f32 0x3F800000#32))

set_option maxRecDepth 8192 in
set_option maxHeartbeats 40000000 in
/-- The wells' result: the fold composes the operations into one array term over the arguments (each operation's result
    read at its own buffer, every other buffer left as it was), and that term is the layer over the summed site
    features, the wells' own features, the counts and the first relation's weights. -/
theorem out_wells (V : Valuation τ sig (Elt Ideal)) :
    after (RefRun.ops (F := Ideal)) V (main_v61 : DevRef τ sig)
      = Cert.Sage.head (sumsWells V) (V (main_arg1 : DevRef τ sig)) (cntWells V) (transpose S128x128 [1, 0] (V (main_arg2 : DevRef τ sig)) transposes_S128x128_S128x128_1_0)
        (transpose S128x128 [1, 0] (V (main_arg4 : DevRef τ sig)) transposes_S128x128_S128x128_1_0) (V (main_arg3 : DevRef τ sig))
        (transpose S128x1 [1, 0] (V (main_arg8 : DevRef τ sig)) transposes_S1x128_S128x1_1_0) (V (main_arg9 : DevRef τ sig)) := by
  refine Eq.trans ?_ (Cert.Sage.Layer.layer_eq (n := 200000) (sumsWells V) (V (main_arg1 : DevRef τ sig)) (cntWells V) (transpose S128x128 [1, 0] (V (main_arg2 : DevRef τ sig)) transposes_S128x128_S128x128_1_0)
      (transpose S128x128 [1, 0] (V (main_arg4 : DevRef τ sig)) transposes_S128x128_S128x128_1_0) (V (main_arg3 : DevRef τ sig))
      (transpose S128x1 [1, 0] (V (main_arg8 : DevRef τ sig)) transposes_S1x128_S128x1_1_0) (V (main_arg9 : DevRef τ sig))
      bcast_S_S200000 bcast_S200000_S200000x1_0 bcast_S200000x1_S200000x128_0_1
      dot_S200000x128_S128x128_S200000x128_1_0_0_1_n_n_wf dot_S200000x128_S128x128_S200000x128_1_0_0_1_n_n rfl
      bcast_S128_S1x128_1 bcast_S1x128_S200000x128_0_1 bcast_S_S200000x128
      dot_S200000x128_S128x1_S200000x1_1_0_0_1_n_n_wf dot_S200000x128_S128x1_S200000x1_1_0_0_1_n_n rfl
      bcast_S1_S1x1_1 bcast_S1x1_S200000x1_0_1 bcast_S_S200000x1)
  unfold sumsWells cntWells
  after_results_simp
  rfl

set_option maxRecDepth 8192 in
set_option maxHeartbeats 40000000 in
/-- The sites' result, likewise, over the summed well features, the sites' own features, the counts and the second
    relation's weights. -/
theorem out_sites (V : Valuation τ sig (Elt Ideal)) :
    after (RefRun.ops (F := Ideal)) V (main_v67 : DevRef τ sig)
      = Cert.Sage.head (sumsSites V) (V (main_arg0 : DevRef τ sig)) (cntSites V) (transpose S128x128 [1, 0] (V (main_arg5 : DevRef τ sig)) transposes_S128x128_S128x128_1_0)
        (transpose S128x128 [1, 0] (V (main_arg7 : DevRef τ sig)) transposes_S128x128_S128x128_1_0) (V (main_arg6 : DevRef τ sig))
        (transpose S128x1 [1, 0] (V (main_arg10 : DevRef τ sig)) transposes_S1x128_S128x1_1_0) (V (main_arg11 : DevRef τ sig)) := by
  refine Eq.trans ?_ (Cert.Sage.Layer.layer_eq (n := 50000) (sumsSites V) (V (main_arg0 : DevRef τ sig)) (cntSites V) (transpose S128x128 [1, 0] (V (main_arg5 : DevRef τ sig)) transposes_S128x128_S128x128_1_0)
      (transpose S128x128 [1, 0] (V (main_arg7 : DevRef τ sig)) transposes_S128x128_S128x128_1_0) (V (main_arg6 : DevRef τ sig))
      (transpose S128x1 [1, 0] (V (main_arg10 : DevRef τ sig)) transposes_S1x128_S128x1_1_0) (V (main_arg11 : DevRef τ sig))
      bcast_S_S50000 bcast_S50000_S50000x1_0 bcast_S50000x1_S50000x128_0_1
      dot_S50000x128_S128x128_S50000x128_1_0_0_1_n_n_wf dot_S50000x128_S128x128_S50000x128_1_0_0_1_n_n rfl
      bcast_S128_S1x128_1 bcast_S1x128_S50000x128_0_1 bcast_S_S50000x128
      dot_S50000x128_S128x1_S50000x1_1_0_0_1_n_n_wf dot_S50000x128_S128x1_S50000x1_1_0_0_1_n_n rfl
      bcast_S1_S1x1_1 bcast_S1x1_S50000x1_0_1 bcast_S_S50000x1)
  unfold sumsSites cntSites
  after_results_simp
  rfl

/-- The buffers the operations write, in order: every buffer but the sixteen arguments'. -/
def written : List (Ref sig .tc) :=
  [ main_c, main_v0, main_v1, main_c_0, main_v2, main_v3, main_v4, main_v5, main_v6, main_cst, main_v7, main_v8,
    main_v9, main_cst_1, main_v10, main_cst_2, main_v11, main_v12, main_v13, main_cst_3, main_v14, main_v15, main_v16, main_v17,
    main_v18, main_v19, main_v20, main_v21, main_v22, main_v23, main_v24, main_v25, main_v26, main_c_4, main_v27, main_v28,
    main_c_5, main_v29, main_v30, main_v31, main_v32, main_v33, main_cst_6, main_v34, main_v35, main_v36, main_cst_7, main_v37,
    main_cst_8, main_v38, main_v39, main_v40, main_cst_9, main_v41, main_v42, main_v43, main_v44, main_v45, main_v46, main_v47,
    main_v48, main_v49, main_v50, main_v51, main_v52, main_v53, main_call0_cst, main_call0_v0, main_v54, main_call1_cst, main_call1_v0, main_v55,
    main_v56, main_v57, main_v58, main_v59, main_v60, main_cst_10, main_call2_cst, main_call2_v0, main_call2_v1, main_call2_v2, main_call2_v3, main_call2_v4,
    main_v61, main_v62, main_v63, main_v64, main_v65, main_v66, main_cst_11, main_call3_cst, main_call3_v0, main_call3_v1, main_call3_v2, main_call3_v3,
    main_call3_v4, main_v67 ]

set_option maxRecDepth 8192 in
/-- Each operation writes its result buffer only, and that buffer is in the list. -/
theorem writes_sub : (RefRun.ops (F := Ideal)).Forall fun op =>
    op.writes ⊆ (written.map (Proc.devRef (τ := τ) .tc)).toFinset := by
  simp only [RefRun.ops, List.Forall, nullary_writes, unary_writes, binary_writes, ternary_writes,
    Finset.singleton_subset_iff, List.mem_toFinset]
  repeat' apply And.intro
  all_goals exact List.mem_map_of_mem (by decide)

/-- Argument 0 ends as launched: no operation writes it. -/
theorem arg_kept_0 (V : Valuation τ sig (Elt Ideal)) :
    after (RefRun.ops (F := Ideal)) V (main_arg0 : DevRef τ sig) = V (main_arg0 : DevRef τ sig) :=
  after_of_writes_sub _ V writes_sub (by decide)

/-- Argument 1 ends as launched: no operation writes it. -/
theorem arg_kept_1 (V : Valuation τ sig (Elt Ideal)) :
    after (RefRun.ops (F := Ideal)) V (main_arg1 : DevRef τ sig) = V (main_arg1 : DevRef τ sig) :=
  after_of_writes_sub _ V writes_sub (by decide)

/-- Argument 2 ends as launched: no operation writes it. -/
theorem arg_kept_2 (V : Valuation τ sig (Elt Ideal)) :
    after (RefRun.ops (F := Ideal)) V (main_arg2 : DevRef τ sig) = V (main_arg2 : DevRef τ sig) :=
  after_of_writes_sub _ V writes_sub (by decide)

/-- Argument 3 ends as launched: no operation writes it. -/
theorem arg_kept_3 (V : Valuation τ sig (Elt Ideal)) :
    after (RefRun.ops (F := Ideal)) V (main_arg3 : DevRef τ sig) = V (main_arg3 : DevRef τ sig) :=
  after_of_writes_sub _ V writes_sub (by decide)

/-- Argument 4 ends as launched: no operation writes it. -/
theorem arg_kept_4 (V : Valuation τ sig (Elt Ideal)) :
    after (RefRun.ops (F := Ideal)) V (main_arg4 : DevRef τ sig) = V (main_arg4 : DevRef τ sig) :=
  after_of_writes_sub _ V writes_sub (by decide)

/-- Argument 5 ends as launched: no operation writes it. -/
theorem arg_kept_5 (V : Valuation τ sig (Elt Ideal)) :
    after (RefRun.ops (F := Ideal)) V (main_arg5 : DevRef τ sig) = V (main_arg5 : DevRef τ sig) :=
  after_of_writes_sub _ V writes_sub (by decide)

/-- Argument 6 ends as launched: no operation writes it. -/
theorem arg_kept_6 (V : Valuation τ sig (Elt Ideal)) :
    after (RefRun.ops (F := Ideal)) V (main_arg6 : DevRef τ sig) = V (main_arg6 : DevRef τ sig) :=
  after_of_writes_sub _ V writes_sub (by decide)

/-- Argument 7 ends as launched: no operation writes it. -/
theorem arg_kept_7 (V : Valuation τ sig (Elt Ideal)) :
    after (RefRun.ops (F := Ideal)) V (main_arg7 : DevRef τ sig) = V (main_arg7 : DevRef τ sig) :=
  after_of_writes_sub _ V writes_sub (by decide)

/-- Argument 8 ends as launched: no operation writes it. -/
theorem arg_kept_8 (V : Valuation τ sig (Elt Ideal)) :
    after (RefRun.ops (F := Ideal)) V (main_arg8 : DevRef τ sig) = V (main_arg8 : DevRef τ sig) :=
  after_of_writes_sub _ V writes_sub (by decide)

/-- Argument 9 ends as launched: no operation writes it. -/
theorem arg_kept_9 (V : Valuation τ sig (Elt Ideal)) :
    after (RefRun.ops (F := Ideal)) V (main_arg9 : DevRef τ sig) = V (main_arg9 : DevRef τ sig) :=
  after_of_writes_sub _ V writes_sub (by decide)

/-- Argument 10 ends as launched: no operation writes it. -/
theorem arg_kept_10 (V : Valuation τ sig (Elt Ideal)) :
    after (RefRun.ops (F := Ideal)) V (main_arg10 : DevRef τ sig) = V (main_arg10 : DevRef τ sig) :=
  after_of_writes_sub _ V writes_sub (by decide)

/-- Argument 11 ends as launched: no operation writes it. -/
theorem arg_kept_11 (V : Valuation τ sig (Elt Ideal)) :
    after (RefRun.ops (F := Ideal)) V (main_arg11 : DevRef τ sig) = V (main_arg11 : DevRef τ sig) :=
  after_of_writes_sub _ V writes_sub (by decide)

/-- Argument 12 ends as launched: no operation writes it. -/
theorem arg_kept_12 (V : Valuation τ sig (Elt Ideal)) :
    after (RefRun.ops (F := Ideal)) V (main_arg12 : DevRef τ sig) = V (main_arg12 : DevRef τ sig) :=
  after_of_writes_sub _ V writes_sub (by decide)

/-- Argument 13 ends as launched: no operation writes it. -/
theorem arg_kept_13 (V : Valuation τ sig (Elt Ideal)) :
    after (RefRun.ops (F := Ideal)) V (main_arg13 : DevRef τ sig) = V (main_arg13 : DevRef τ sig) :=
  after_of_writes_sub _ V writes_sub (by decide)

/-- Argument 14 ends as launched: no operation writes it. -/
theorem arg_kept_14 (V : Valuation τ sig (Elt Ideal)) :
    after (RefRun.ops (F := Ideal)) V (main_arg14 : DevRef τ sig) = V (main_arg14 : DevRef τ sig) :=
  after_of_writes_sub _ V writes_sub (by decide)

/-- Argument 15 ends as launched: no operation writes it. -/
theorem arg_kept_15 (V : Valuation τ sig (Elt Ideal)) :
    after (RefRun.ops (F := Ideal)) V (main_arg15 : DevRef τ sig) = V (main_arg15 : DevRef τ sig) :=
  after_of_writes_sub _ V writes_sub (by decide)

end Cert.ReferenceIdeal.RefValue

end
-- ==== Proof.lean ====
/-
  A two-relation mean-aggregation layer with a scalar head per relation: the tiled kernel program against the plain
  array program, over the extended reals.

  Both programs build, per relation, the summed neighbour features S (a gather of the source nodes' rows scattered and
  added at the destination nodes) and the neighbour counts cnt (ones scattered and added) by the same host operations.
  The kernel program then multiplies S by the reciprocal 1 / max(cnt, 1) inside a launch tiled over blocks of 5000
  destination nodes, forms max((mean·Wlᵀ + x·Wrᵀ) + bl, 0), and applies the head and the leaky rectifier in its
  strict-test form; the plain program divides S by max(cnt, 1), forms max((mean·Wlᵀ + bl) + x·Wrᵀ, 0) and applies the
  head and the rectifier in its weak-test form. At the exact values the matrix unit's narrowing is the identity, a
  tiled product is the whole product row by row, the product with the reciprocal of a number that is at least 1 is the
  quotient by it, addition is commutative and associative at the infinities too, and the two rectifier forms differ only
  at 0 where both give 0. So both programs compute the same function of the arguments, node by node; no finiteness of
  the inputs is used. The ideal pass rewrote nothing, so the idealization claim is trivial.
-/
import proofs.«152094_j29154238005713_2_alg».proof.Defs
import proofs.«152094_j29154238005713_2_alg».proof.Proof.Gen.Kernel
import proofs.«152094_j29154238005713_2_alg».proof.Proof.Gen.Kernel.Frame
import proofs.«152094_j29154238005713_2_alg».proof.Proof.Gen.KernelIdeal
import proofs.«152094_j29154238005713_2_alg».proof.Proof.Gen.KernelIdeal.Frame
import proofs.«152094_j29154238005713_2_alg».proof.Proof.Gen.ReferenceIdeal
import proofs.«152094_j29154238005713_2_alg».proof.Proof.Gen.Pre_finite_inputs
import proofs.«152094_j29154238005713_2_alg».proof.Proof.KernelValue
import proofs.«152094_j29154238005713_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

-- the gather and the scatter-add are the same opaque terms in both programs: nothing here looks inside them
attribute [local irreducible] Host.scatterAdd Host.gather

/-- The plain program's first result is the kernel program's, once the arguments agree: the same layer of the same
    sums, counts, features and weights. -/
theorem wells_eq (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (e0 : V (Cert.ReferenceIdeal.main_arg0 : DevRef Cert.ReferenceIdeal.τ Cert.ReferenceIdeal.sig) = m ((c.tc : Thread Cert.KernelIdeal.nD Cert.KernelIdeal.τ).loc Cert.KernelIdeal.main_arg0))
    (e1 : V (Cert.ReferenceIdeal.main_arg1 : DevRef Cert.ReferenceIdeal.τ Cert.ReferenceIdeal.sig) = m ((c.tc : Thread Cert.KernelIdeal.nD Cert.KernelIdeal.τ).loc Cert.KernelIdeal.main_arg1))
    (e2 : V (Cert.ReferenceIdeal.main_arg2 : DevRef Cert.ReferenceIdeal.τ Cert.ReferenceIdeal.sig) = m ((c.tc : Thread Cert.KernelIdeal.nD Cert.KernelIdeal.τ).loc Cert.KernelIdeal.main_arg2))
    (e3 : V (Cert.ReferenceIdeal.main_arg3 : DevRef Cert.ReferenceIdeal.τ Cert.ReferenceIdeal.sig) = m ((c.tc : Thread Cert.KernelIdeal.nD Cert.KernelIdeal.τ).loc Cert.KernelIdeal.main_arg3))
    (e4 : V (Cert.ReferenceIdeal.main_arg4 : DevRef Cert.ReferenceIdeal.τ Cert.ReferenceIdeal.sig) = m ((c.tc : Thread Cert.KernelIdeal.nD Cert.KernelIdeal.τ).loc Cert.KernelIdeal.main_arg4))
    (e8 : V (Cert.ReferenceIdeal.main_arg8 : DevRef Cert.ReferenceIdeal.τ Cert.ReferenceIdeal.sig) = m ((c.tc : Thread Cert.KernelIdeal.nD Cert.KernelIdeal.τ).loc Cert.KernelIdeal.main_arg8))
    (e9 : V (Cert.ReferenceIdeal.main_arg9 : DevRef Cert.ReferenceIdeal.τ Cert.ReferenceIdeal.sig) = m ((c.tc : Thread Cert.KernelIdeal.nD Cert.KernelIdeal.τ).loc Cert.KernelIdeal.main_arg9))
    (e12 : V (Cert.ReferenceIdeal.main_arg12 : DevRef Cert.ReferenceIdeal.τ Cert.ReferenceIdeal.sig) = m ((c.tc : Thread Cert.KernelIdeal.nD Cert.KernelIdeal.τ).loc Cert.KernelIdeal.main_arg12))
    (e13 : V (Cert.ReferenceIdeal.main_arg13 : DevRef Cert.ReferenceIdeal.τ Cert.ReferenceIdeal.sig) = m ((c.tc : Thread Cert.KernelIdeal.nD Cert.KernelIdeal.τ).loc Cert.KernelIdeal.main_arg13)) :
    Cert.Sage.head (Cert.ReferenceIdeal.RefValue.sumsWells V) (V (Cert.ReferenceIdeal.main_arg1 : DevRef Cert.ReferenceIdeal.τ Cert.ReferenceIdeal.sig))
        (Cert.ReferenceIdeal.RefValue.cntWells V)
        (transpose Cert.ReferenceIdeal.S128x128 [1, 0] (V (Cert.ReferenceIdeal.main_arg2 : DevRef Cert.ReferenceIdeal.τ Cert.ReferenceIdeal.sig)) Cert.ReferenceIdeal.Gen.transposes_S128x128_S128x128_1_0)
        (transpose Cert.ReferenceIdeal.S128x128 [1, 0] (V (Cert.ReferenceIdeal.main_arg4 : DevRef Cert.ReferenceIdeal.τ Cert.ReferenceIdeal.sig)) Cert.ReferenceIdeal.Gen.transposes_S128x128_S128x128_1_0)
        (V (Cert.ReferenceIdeal.main_arg3 : DevRef Cert.ReferenceIdeal.τ Cert.ReferenceIdeal.sig))
        (transpose Cert.ReferenceIdeal.S128x1 [1, 0] (V (Cert.ReferenceIdeal.main_arg8 : DevRef Cert.ReferenceIdeal.τ Cert.ReferenceIdeal.sig)) Cert.ReferenceIdeal.Gen.transposes_S1x128_S128x1_1_0)
        (V (Cert.ReferenceIdeal.main_arg9 : DevRef Cert.ReferenceIdeal.τ Cert.ReferenceIdeal.sig))
      = Cert.KernelIdeal.KValue.outWells m c := by
  unfold Cert.ReferenceIdeal.RefValue.sumsWells Cert.ReferenceIdeal.RefValue.cntWells
  rw [e0, e1, e2, e3, e4, e8, e9, e12, e13]
  rfl

/-- The plain program's second result is the kernel program's, once the arguments agree. -/
theorem sites_eq (V : Valuation Cert.ReferenceIdeal.τ Cert.ReferenceIdeal.sig (Elt Ideal))
    (m : (ℓ : Loc Cert.KernelIdeal.nD Cert.KernelIdeal.τ Cert.KernelIdeal.sig) → Buf (Elt Ideal) ℓ) (c : Dev Cert.KernelIdeal.nD)
    (e0 : V (Cert.ReferenceIdeal.main_arg0 : DevRef Cert.ReferenceIdeal.τ Cert.ReferenceIdeal.sig) = m ((c.tc : Thread Cert.KernelIdeal.nD Cert.KernelIdeal.τ).loc Cert.KernelIdeal.main_arg0))
    (e1 : V (Cert.ReferenceIdeal.main_arg1 : DevRef Cert.ReferenceIdeal.τ Cert.ReferenceIdeal.sig) = m ((c.tc : Thread Cert.KernelIdeal.nD Cert.KernelIdeal.τ).loc Cert.KernelIdeal.main_arg1))
    (e5 : V (Cert.ReferenceIdeal.main_arg5 : DevRef Cert.ReferenceIdeal.τ Cert.ReferenceIdeal.sig) = m ((c.tc : Thread Cert.KernelIdeal.nD Cert.KernelIdeal.τ).loc Cert.KernelIdeal.main_arg5))
    (e6 : V (Cert.ReferenceIdeal.main_arg6 : DevRef Cert.ReferenceIdeal.τ Cert.ReferenceIdeal.sig) = m ((c.tc : Thread Cert.KernelIdeal.nD Cert.KernelIdeal.τ).loc Cert.KernelIdeal.main_arg6))
    (e7 : V (Cert.ReferenceIdeal.main_arg7 : DevRef Cert.ReferenceIdeal.τ Cert.ReferenceIdeal.sig) = m ((c.tc : Thread Cert.KernelIdeal.nD Cert.KernelIdeal.τ).loc Cert.KernelIdeal.main_arg7))
    (e10 : V (Cert.ReferenceIdeal.main_arg10 : DevRef Cert.ReferenceIdeal.τ Cert.ReferenceIdeal.sig) = m ((c.tc : Thread Cert.KernelIdeal.nD Cert.KernelIdeal.τ).loc Cert.KernelIdeal.main_arg10))
    (e11 : V (Cert.ReferenceIdeal.main_arg11 : DevRef Cert.ReferenceIdeal.τ Cert.ReferenceIdeal.sig) = m ((c.tc : Thread Cert.KernelIdeal.nD Cert.KernelIdeal.τ).loc Cert.KernelIdeal.main_arg11))
    (e14 : V (Cert.ReferenceIdeal.main_arg14 : DevRef Cert.ReferenceIdeal.τ Cert.ReferenceIdeal.sig) = m ((c.tc : Thread Cert.KernelIdeal.nD Cert.KernelIdeal.τ).loc Cert.KernelIdeal.main_arg14))
    (e15 : V (Cert.ReferenceIdeal.main_arg15 : DevRef Cert.ReferenceIdeal.τ Cert.ReferenceIdeal.sig) = m ((c.tc : Thread Cert.KernelIdeal.nD Cert.KernelIdeal.τ).loc Cert.KernelIdeal.main_arg15)) :
    Cert.Sage.head (Cert.ReferenceIdeal.RefValue.sumsSites V) (V (Cert.ReferenceIdeal.main_arg0 : DevRef Cert.ReferenceIdeal.τ Cert.ReferenceIdeal.sig))
        (Cert.ReferenceIdeal.RefValue.cntSites V)
        (transpose Cert.ReferenceIdeal.S128x128 [1, 0] (V (Cert.ReferenceIdeal.main_arg5 : DevRef Cert.ReferenceIdeal.τ Cert.ReferenceIdeal.sig)) Cert.ReferenceIdeal.Gen.transposes_S128x128_S128x128_1_0)
        (transpose Cert.ReferenceIdeal.S128x128 [1, 0] (V (Cert.ReferenceIdeal.main_arg7 : DevRef Cert.ReferenceIdeal.τ Cert.ReferenceIdeal.sig)) Cert.ReferenceIdeal.Gen.transposes_S128x128_S128x128_1_0)
        (V (Cert.ReferenceIdeal.main_arg6 : DevRef Cert.ReferenceIdeal.τ Cert.ReferenceIdeal.sig))
        (transpose Cert.ReferenceIdeal.S128x1 [1, 0] (V (Cert.ReferenceIdeal.main_arg10 : DevRef Cert.ReferenceIdeal.τ Cert.ReferenceIdeal.sig)) Cert.ReferenceIdeal.Gen.transposes_S1x128_S128x1_1_0)
        (V (Cert.ReferenceIdeal.main_arg11 : DevRef Cert.ReferenceIdeal.τ Cert.ReferenceIdeal.sig))
      = Cert.KernelIdeal.KValue.outSites m c := by
  unfold Cert.ReferenceIdeal.RefValue.sumsSites Cert.ReferenceIdeal.RefValue.cntSites
  rw [e0, e1, e5, e6, e7, e10, e11, e14, e15]
  rfl

/-- The word-level kernel program runs and leaves its arguments unchanged: the generated frame. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The plain program runs and leaves its arguments unchanged: its run, no operation of which writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefValue.arg_kept_0 _),
     (h c Cert.ReferenceIdeal.main_arg1).trans (Cert.ReferenceIdeal.RefValue.arg_kept_1 _),
     (h c Cert.ReferenceIdeal.main_arg2).trans (Cert.ReferenceIdeal.RefValue.arg_kept_2 _),
     (h c Cert.ReferenceIdeal.main_arg3).trans (Cert.ReferenceIdeal.RefValue.arg_kept_3 _),
     (h c Cert.ReferenceIdeal.main_arg4).trans (Cert.ReferenceIdeal.RefValue.arg_kept_4 _),
     (h c Cert.ReferenceIdeal.main_arg5).trans (Cert.ReferenceIdeal.RefValue.arg_kept_5 _),
     (h c Cert.ReferenceIdeal.main_arg6).trans (Cert.ReferenceIdeal.RefValue.arg_kept_6 _),
     (h c Cert.ReferenceIdeal.main_arg7).trans (Cert.ReferenceIdeal.RefValue.arg_kept_7 _),
     (h c Cert.ReferenceIdeal.main_arg8).trans (Cert.ReferenceIdeal.RefValue.arg_kept_8 _),
     (h c Cert.ReferenceIdeal.main_arg9).trans (Cert.ReferenceIdeal.RefValue.arg_kept_9 _),
     (h c Cert.ReferenceIdeal.main_arg10).trans (Cert.ReferenceIdeal.RefValue.arg_kept_10 _),
     (h c Cert.ReferenceIdeal.main_arg11).trans (Cert.ReferenceIdeal.RefValue.arg_kept_11 _),
     (h c Cert.ReferenceIdeal.main_arg12).trans (Cert.ReferenceIdeal.RefValue.arg_kept_12 _),
     (h c Cert.ReferenceIdeal.main_arg13).trans (Cert.ReferenceIdeal.RefValue.arg_kept_13 _),
     (h c Cert.ReferenceIdeal.main_arg14).trans (Cert.ReferenceIdeal.RefValue.arg_kept_14 _),
     (h c Cert.ReferenceIdeal.main_arg15).trans (Cert.ReferenceIdeal.RefValue.arg_kept_15 _)⟩)
    (Cert.ReferenceIdeal.RefRun.run_main (F := Ideal) m ρ)

/-- The ideal pass rewrote no operation. -/
theorem preserves : Cert.preserves_Kernel_KernelIdeal := trivial

/-- From memories agreeing on the arguments both idealized programs run, end with the same two result columns, and
    leave their arguments unchanged. -/
theorem algebraic : Cert.algebraic_KernelIdeal_ReferenceIdeal := by
  intro m ρ m' ρ' _ hagree
  refine ⟨fun c => Cert.KernelIdeal.KValue.outWells m c, fun c => Cert.KernelIdeal.KValue.outSites m c,
    Cert.KernelIdeal.KValue.run m ρ, ?_⟩
  refine (θ_run Cert.ReferenceIdeal.defs _ _).mono (fun r h c => ?_)
    (Cert.ReferenceIdeal.RefRun.run_main (F := Ideal) m' ρ')
  obtain ⟨e0, e1, e2, e3, e4, e5, e6, e7, e8, e9, e10, e11, e12, e13, e14, e15⟩ := hagree c
  refine ⟨(h c Cert.ReferenceIdeal.main_v61).trans ?_, (h c Cert.ReferenceIdeal.main_v67).trans ?_,
     (h c Cert.ReferenceIdeal.main_arg0).trans (Cert.ReferenceIdeal.RefValue.arg_kept_0 _),
     (h c Cert.ReferenceIdeal.main_arg1).trans (Cert.ReferenceIdeal.RefValue.arg_kept_1 _),
     (h c Cert.ReferenceIdeal.main_arg2).trans (Cert.ReferenceIdeal.RefValue.arg_kept_2 _),
     (h c Cert.ReferenceIdeal.main_arg3).trans (Cert.ReferenceIdeal.RefValue.arg_kept_3 _),
     (h c Cert.ReferenceIdeal.main_arg4).trans (Cert.ReferenceIdeal.RefValue.arg_kept_4 _),
     (h c Cert.ReferenceIdeal.main_arg5).trans (Cert.ReferenceIdeal.RefValue.arg_kept_5 _),
     (h c Cert.ReferenceIdeal.main_arg6).trans (Cert.ReferenceIdeal.RefValue.arg_kept_6 _),
     (h c Cert.ReferenceIdeal.main_arg7).trans (Cert.ReferenceIdeal.RefValue.arg_kept_7 _),
     (h c Cert.ReferenceIdeal.main_arg8).trans (Cert.ReferenceIdeal.RefValue.arg_kept_8 _),
     (h c Cert.ReferenceIdeal.main_arg9).trans (Cert.ReferenceIdeal.RefValue.arg_kept_9 _),
     (h c Cert.ReferenceIdeal.main_arg10).trans (Cert.ReferenceIdeal.RefValue.arg_kept_10 _),
     (h c Cert.ReferenceIdeal.main_arg11).trans (Cert.ReferenceIdeal.RefValue.arg_kept_11 _),
     (h c Cert.ReferenceIdeal.main_arg12).trans (Cert.ReferenceIdeal.RefValue.arg_kept_12 _),
     (h c Cert.ReferenceIdeal.main_arg13).trans (Cert.ReferenceIdeal.RefValue.arg_kept_13 _),
     (h c Cert.ReferenceIdeal.main_arg14).trans (Cert.ReferenceIdeal.RefValue.arg_kept_14 _),
     (h c Cert.ReferenceIdeal.main_arg15).trans (Cert.ReferenceIdeal.RefValue.arg_kept_15 _)⟩
  · rw [Cert.ReferenceIdeal.RefValue.out_wells]
    exact wells_eq _ m c e0 e1 e2 e3 e4 e8 e9 e12 e13
  · rw [Cert.ReferenceIdeal.RefValue.out_sites]
    exact sites_eq _ m c e0 e1 e5 e6 e7 e10 e11 e14 e15

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
